-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_v134) = v1 c
          ∧ r.2.mem ((c.tc : Thread Cert.ReferenceIdeal.nD Cert.ReferenceIdeal.τ).loc Cert.ReferenceIdeal.main_v137) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x306x306 : Shape := ⟨4, ![1, 1, 306, 306]⟩
abbrev S10x1x7x7 : Shape := ⟨4, ![10, 1, 7, 7]⟩
abbrev S_ : Shape := ⟨0, ![]⟩

class Facts : Prop where
  bcast_S_S1x1x306x306 : S_.BroadcastsInDim S1x1x306x306 (![] : Fin 0 → Fin S1x1x306x306.rank)
  reducesTo_S1x1x306x306_S_d0_1_2_3 : S1x1x306x306.ReducesTo [0, 1, 2, 3] S_
  h_S_ : 0 < S_.numel
  bcast_S_S10x1x7x7 : S_.BroadcastsInDim S10x1x7x7 (![] : Fin 0 → Fin S10x1x7x7.rank)
  reducesTo_S10x1x7x7_S_d0_1_2_3 : S10x1x7x7.ReducesTo [0, 1, 2, 3] S_

variable [Facts]

def fn {F : FTy → Type} [FloatOps F] (main_arg0 : FVec F S1x1x306x306 .f32) (main_arg1 : FVec F S10x1x7x7 .f32) (main_arg2 : FVec F S10x1x7x7 .f32) : IVec S_ 1 :=
  let main_v0 : FVec F S1x1x306x306 .f32 := Host.absf main_arg0
  let main_cst : FVec F S_ .f32 := constant S_ .f32 0x7F800000#32
  let main_v1 : FVec F S1x1x306x306 .f32 := broadcastInDim S1x1x306x306 ![] bcast_S_S1x1x306x306 main_cst
  let main_v2 : IVec S1x1x306x306 1 := cmpf .olt main_v0 main_v1
  let main_c : IVec S_ 1 := constantI S_ 1 1#1
  let main_v3 : IVec S_ 1 := (fun x v => Host.reduce IntOp.andi x v reducesTo_S1x1x306x306_S_d0_1_2_3 h_S_) main_v2 main_c
  let main_v4 : FVec F S10x1x7x7 .f32 := Host.absf main_arg1
  let main_cst_0 : FVec F S_ .f32 := constant S_ .f32 0x7F800000#32
  let main_v5 : FVec F S10x1x7x7 .f32 := broadcastInDim S10x1x7x7 ![] bcast_S_S10x1x7x7 main_cst_0
  let main_v6 : IVec S10x1x7x7 1 := cmpf .olt main_v4 main_v5
  let main_c_1 : IVec S_ 1 := constantI S_ 1 1#1
  let main_v7 : IVec S_ 1 := (fun x v => Host.reduce IntOp.andi x v reducesTo_S10x1x7x7_S_d0_1_2_3 h_S_) main_v6 main_c_1
  let main_v8 : IVec S_ 1 := andi main_v3 main_v7
  let main_v9 : FVec F S10x1x7x7 .f32 := Host.absf main_arg2
  let main_cst_2 : FVec F S_ .f32 := constant S_ .f32 0x7F800000#32
  let main_v10 : FVec F S10x1x7x7 .f32 := broadcastInDim S10x1x7x7 ![] bcast_S_S10x1x7x7 main_cst_2
  let main_v11 : IVec S10x1x7x7 1 := cmpf .olt main_v9 main_v10
  let main_c_3 : IVec S_ 1 := constantI S_ 1 1#1
  let main_v12 : IVec S_ 1 := (fun x v => Host.reduce IntOp.andi x v reducesTo_S10x1x7x7_S_d0_1_2_3 h_S_) main_v11 main_c_3
  let main_v13 : IVec S_ 1 := andi main_v8 main_v12
  main_v13
-- ==== Kernel.lean ====
abbrev S1x1x306x306 : Shape := ⟨4, ![1, 1, 306, 306]⟩
abbrev S10x1x7x7 : Shape := ⟨4, ![10, 1, 7, 7]⟩
abbrev S10x49 : Shape := ⟨2, ![10, 49]⟩
abbrev S1x10 : Shape := ⟨2, ![1, 10]⟩
abbrev S10x300x300 : Shape := ⟨3, ![10, 300, 300]⟩
abbrev S306x306 : Shape := ⟨2, ![306, 306]⟩
abbrev S306x300 : Shape := ⟨2, ![306, 300]⟩
abbrev S300x300 : Shape := ⟨2, ![300, 300]⟩
abbrev S10x1 : Shape := ⟨2, ![10, 1]⟩
abbrev S10 : Shape := ⟨1, ![10]⟩
abbrev S10x1x1 : Shape := ⟨3, ![10, 1, 1]⟩
abbrev S1x300x300 : Shape := ⟨3, ![1, 300, 300]⟩
abbrev S10x300 : Shape := ⟨2, ![10, 300]⟩
abbrev S1x10x1 : Shape := ⟨3, ![1, 10, 1]⟩
abbrev S1x10x90000 : Shape := ⟨3, ![1, 10, 90000]⟩
abbrev S1x10x300x300 : Shape := ⟨4, ![1, 10, 300, 300]⟩
abbrev S10x300x30x10 : Shape := ⟨4, ![10, 300, 30, 10]⟩
abbrev S_ : Shape := ⟨0, ![]⟩
abbrev S10x300x30 : Shape := ⟨3, ![10, 300, 30]⟩

abbrev nBuf : Space → Nat
  | .hbm => 21
  | .vmem => 7
  | .smem => 0
  | _ => 0

abbrev bufTy : (tb : Table) → Fin (tcTables nBuf tb) → BufTy
  | .hbm, ⟨0, _⟩ => ⟨S1x1x306x306, .f32⟩
  | .hbm, ⟨1, _⟩ => ⟨S10x1x7x7, .f32⟩
  | .hbm, ⟨2, _⟩ => ⟨S10x1x7x7, .f32⟩
  | .hbm, ⟨3, _⟩ => ⟨S10x49, .f32⟩
  | .hbm, ⟨4, _⟩ => ⟨S10x49, .f32⟩
  | .hbm, ⟨5, _⟩ => ⟨S1x10, .f32⟩
  | .hbm, ⟨6, _⟩ => ⟨S1x10, .f32⟩
  | .hbm, ⟨7, _⟩ => ⟨S1x10, .f32⟩
  | .hbm, ⟨8, _⟩ => ⟨S1x10x1, .f32⟩
  | .hbm, ⟨9, _⟩ => ⟨S1x10x90000, .f32⟩
  | .hbm, ⟨10, _⟩ => ⟨S1x10x300x300, .f32⟩
  | .hbm, ⟨11, _⟩ => ⟨S1x10x1, .f32⟩
  | .hbm, ⟨12, _⟩ => ⟨S1x10x90000, .f32⟩
  | .hbm, ⟨13, _⟩ => ⟨S1x10x300x300, .f32⟩
  | .hbm, ⟨14, _⟩ => ⟨S1x10x1, .f32⟩
  | .hbm, ⟨15, _⟩ => ⟨S1x10x90000, .f32⟩
  | .hbm, ⟨16, _⟩ => ⟨S1x10x300x300, .f32⟩
  | .hbm, ⟨17, _⟩ => ⟨S10x300x300, .f32⟩
  | .hbm, ⟨18, _⟩ => ⟨S10x300x30x10, .f32⟩
  | .hbm, ⟨19, _⟩ => ⟨S_, .f32⟩
  | .hbm, ⟨20, _⟩ => ⟨S10x300x30, .f32⟩
  | .local _ .vmem, ⟨0, _⟩ => ⟨S1x1x306x306, .f32⟩
  | .local _ .vmem, ⟨1, _⟩ => ⟨S10x49, .f32⟩
  | .local _ .vmem, ⟨2, _⟩ => ⟨S10x49, .f32⟩
  | .local _ .vmem, ⟨3, _⟩ => ⟨S1x10, .f32⟩
  | .local _ .vmem, ⟨4, _⟩ => ⟨S1x10, .f32⟩
  | .local _ .vmem, ⟨5, _⟩ => ⟨S10x300x300, .f32⟩
  | .local _ .vmem, ⟨6, _⟩ => ⟨S10x300x300, .f32⟩
  | _, _ => ⟨S1x1x306x306, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1x306x306 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S10x49 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10x49 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S10x1x7x7_S10x49 : S10x1x7x7.ShapeCasts S10x49
  inb_S1x1x306x306_S1x1x306x306_0_0_0_0 : ∀ a, (![0, 0, 0, 0] : Fin 4 → Nat) a + S1x1x306x306.size a ≤ S1x1x306x306.size a
  h_S1x1x306x306 : 0 < S1x1x306x306.numel
  shapeCasts_S1x1x306x306_S306x306 : S1x1x306x306.ShapeCasts S306x306
  inb_S10x300x300_S10x300x300_0_0_0 : ∀ a, (![0, 0, 0] : Fin 3 → Nat) a + S10x300x300.size a ≤ S10x300x300.size a
  h_S10x300x300 : 0 < S10x300x300.numel
  shapeCasts_S10x300x300_S10x300x300 : S10x300x300.ShapeCasts S10x300x300
  slices_S306x306_o0_0_S306x300 : S306x306.Slices ![0, 0] S306x300
  slices_S306x300_o0_0_S300x300 : S306x300.Slices ![0, 0] S300x300
  inb_S10x49_S10x1_0_0 : ∀ a, (![0, 0] : Fin 2 → Nat) a + S10x1.size a ≤ S10x49.size a
  h_S10x1 : 0 < S10x1.numel
  shapeCasts_S10x1_S10 : S10x1.ShapeCasts S10
  shapeCasts_S10_S10x1x1 : S10.ShapeCasts S10x1x1
  shapeCasts_S300x300_S1x300x300 : S300x300.ShapeCasts S1x300x300
  broadcasts_S1x300x300_S10x300x300 : S1x300x300.Broadcasts S10x300x300
  broadcasts_S10x1x1_S10x300x300 : S10x1x1.Broadcasts S10x300x300
  slices_S306x300_o1_0_S300x300 : S306x300.Slices ![1, 0] S300x300
  inb_S10x49_S10x1_0_7 : ∀ a, (![0, 7] : Fin 2 → Nat) a + S10x1.size a ≤ S10x49.size a
  slices_S306x300_o2_0_S300x300 : S306x300.Slices ![2, 0] S300x300
  inb_S10x49_S10x1_0_14 : ∀ a, (![0, 14] : Fin 2 → Nat) a + S10x1.size a ≤ S10x49.size a
  slices_S306x300_o3_0_S300x300 : S306x300.Slices ![3, 0] S300x300
  inb_S10x49_S10x1_0_21 : ∀ a, (![0, 21] : Fin 2 → Nat) a + S10x1.size a ≤ S10x49.size a
  slices_S306x300_o4_0_S300x300 : S306x300.Slices ![4, 0] S300x300
  inb_S10x49_S10x1_0_28 : ∀ a, (![0, 28] : Fin 2 → Nat) a + S10x1.size a ≤ S10x49.size a
  slices_S306x300_o5_0_S300x300 : S306x300.Slices ![5, 0] S300x300
  inb_S10x49_S10x1_0_35 : ∀ a, (![0, 35] : Fin 2 → Nat) a + S10x1.size a ≤ S10x49.size a
  slices_S306x300_o6_0_S300x300 : S306x300.Slices ![6, 0] S300x300
  inb_S10x49_S10x1_0_42 : ∀ a, (![0, 42] : Fin 2 → Nat) a + S10x1.size a ≤ S10x49.size a
  slices_S306x306_o0_1_S306x300 : S306x306.Slices ![0, 1] S306x300
  inb_S10x49_S10x1_0_1 : ∀ a, (![0, 1] : Fin 2 → Nat) a + S10x1.size a ≤ S10x49.size a
  inb_S10x49_S10x1_0_8 : ∀ a, (![0, 8] : Fin 2 → Nat) a + S10x1.size a ≤ S10x49.size a
  inb_S10x49_S10x1_0_15 : ∀ a, (![0, 15] : Fin 2 → Nat) a + S10x1.size a ≤ S10x49.size a
  inb_S10x49_S10x1_0_22 : ∀ a, (![0, 22] : Fin 2 → Nat) a + S10x1.size a ≤ S10x49.size a
  inb_S10x49_S10x1_0_29 : ∀ a, (![0, 29] : Fin 2 → Nat) a + S10x1.size a ≤ S10x49.size a
  inb_S10x49_S10x1_0_36 : ∀ a, (![0, 36] : Fin 2 → Nat) a + S10x1.size a ≤ S10x49.size a
  inb_S10x49_S10x1_0_43 : ∀ a, (![0, 43] : Fin 2 → Nat) a + S10x1.size a ≤ S10x49.size a
  slices_S306x306_o0_2_S306x300 : S306x306.Slices ![0, 2] S306x300
  inb_S10x49_S10x1_0_2 : ∀ a, (![0, 2] : Fin 2 → Nat) a + S10x1.size a ≤ S10x49.size a
  inb_S10x49_S10x1_0_9 : ∀ a, (![0, 9] : Fin 2 → Nat) a + S10x1.size a ≤ S10x49.size a
  inb_S10x49_S10x1_0_16 : ∀ a, (![0, 16] : Fin 2 → Nat) a + S10x1.size a ≤ S10x49.size a
  inb_S10x49_S10x1_0_23 : ∀ a, (![0, 23] : Fin 2 → Nat) a + S10x1.size a ≤ S10x49.size a
  inb_S10x49_S10x1_0_30 : ∀ a, (![0, 30] : Fin 2 → Nat) a + S10x1.size a ≤ S10x49.size a
  inb_S10x49_S10x1_0_37 : ∀ a, (![0, 37] : Fin 2 → Nat) a + S10x1.size a ≤ S10x49.size a
  inb_S10x49_S10x1_0_44 : ∀ a, (![0, 44] : Fin 2 → Nat) a + S10x1.size a ≤ S10x49.size a
  slices_S306x306_o0_3_S306x300 : S306x306.Slices ![0, 3] S306x300
  inb_S10x49_S10x1_0_3 : ∀ a, (![0, 3] : Fin 2 → Nat) a + S10x1.size a ≤ S10x49.size a
  inb_S10x49_S10x1_0_10 : ∀ a, (![0, 10] : Fin 2 → Nat) a + S10x1.size a ≤ S10x49.size a
  inb_S10x49_S10x1_0_17 : ∀ a, (![0, 17] : Fin 2 → Nat) a + S10x1.size a ≤ S10x49.size a
  inb_S10x49_S10x1_0_24 : ∀ a, (![0, 24] : Fin 2 → Nat) a + S10x1.size a ≤ S10x49.size a
  inb_S10x49_S10x1_0_31 : ∀ a, (![0, 31] : Fin 2 → Nat) a + S10x1.size a ≤ S10x49.size a
  inb_S10x49_S10x1_0_38 : ∀ a, (![0, 38] : Fin 2 → Nat) a + S10x1.size a ≤ S10x49.size a
  inb_S10x49_S10x1_0_45 : ∀ a, (![0, 45] : Fin 2 → Nat) a + S10x1.size a ≤ S10x49.size a
  slices_S306x306_o0_4_S306x300 : S306x306.Slices ![0, 4] S306x300
  inb_S10x49_S10x1_0_4 : ∀ a, (![0, 4] : Fin 2 → Nat) a + S10x1.size a ≤ S10x49.size a
  inb_S10x49_S10x1_0_11 : ∀ a, (![0, 11] : Fin 2 → Nat) a + S10x1.size a ≤ S10x49.size a
  inb_S10x49_S10x1_0_18 : ∀ a, (![0, 18] : Fin 2 → Nat) a + S10x1.size a ≤ S10x49.size a
  inb_S10x49_S10x1_0_25 : ∀ a, (![0, 25] : Fin 2 → Nat) a + S10x1.size a ≤ S10x49.size a
  inb_S10x49_S10x1_0_32 : ∀ a, (![0, 32] : Fin 2 → Nat) a + S10x1.size a ≤ S10x49.size a
  inb_S10x49_S10x1_0_39 : ∀ a, (![0, 39] : Fin 2 → Nat) a + S10x1.size a ≤ S10x49.size a
  inb_S10x49_S10x1_0_46 : ∀ a, (![0, 46] : Fin 2 → Nat) a + S10x1.size a ≤ S10x49.size a
  slices_S306x306_o0_5_S306x300 : S306x306.Slices ![0, 5] S306x300
  inb_S10x49_S10x1_0_5 : ∀ a, (![0, 5] : Fin 2 → Nat) a + S10x1.size a ≤ S10x49.size a
  inb_S10x49_S10x1_0_12 : ∀ a, (![0, 12] : Fin 2 → Nat) a + S10x1.size a ≤ S10x49.size a
  inb_S10x49_S10x1_0_19 : ∀ a, (![0, 19] : Fin 2 → Nat) a + S10x1.size a ≤ S10x49.size a
  inb_S10x49_S10x1_0_26 : ∀ a, (![0, 26] : Fin 2 → Nat) a + S10x1.size a ≤ S10x49.size a
  inb_S10x49_S10x1_0_33 : ∀ a, (![0, 33] : Fin 2 → Nat) a + S10x1.size a ≤ S10x49.size a
  inb_S10x49_S10x1_0_40 : ∀ a, (![0, 40] : Fin 2 → Nat) a + S10x1.size a ≤ S10x49.size a
  inb_S10x49_S10x1_0_47 : ∀ a, (![0, 47] : Fin 2 → Nat) a + S10x1.size a ≤ S10x49.size a
  slices_S306x306_o0_6_S306x300 : S306x306.Slices ![0, 6] S306x300
  inb_S10x49_S10x1_0_6 : ∀ a, (![0, 6] : Fin 2 → Nat) a + S10x1.size a ≤ S10x49.size a
  inb_S10x49_S10x1_0_13 : ∀ a, (![0, 13] : Fin 2 → Nat) a + S10x1.size a ≤ S10x49.size a
  inb_S10x49_S10x1_0_20 : ∀ a, (![0, 20] : Fin 2 → Nat) a + S10x1.size a ≤ S10x49.size a
  inb_S10x49_S10x1_0_27 : ∀ a, (![0, 27] : Fin 2 → Nat) a + S10x1.size a ≤ S10x49.size a
  inb_S10x49_S10x1_0_34 : ∀ a, (![0, 34] : Fin 2 → Nat) a + S10x1.size a ≤ S10x49.size a
  inb_S10x49_S10x1_0_41 : ∀ a, (![0, 41] : Fin 2 → Nat) a + S10x1.size a ≤ S10x49.size a
  inb_S10x49_S10x1_0_48 : ∀ a, (![0, 48] : Fin 2 → Nat) a + S10x1.size a ≤ S10x49.size a
  reduces_S10x300x300_S10x300 : S10x300x300.Reduces [2] S10x300
  reduces_S10x300_S10 : S10x300.Reduces [1] S10
  inb_S1x10_S1x10_0_0 : ∀ a, (![0, 0] : Fin 2 → Nat) a + S1x10.size a ≤ S1x10.size a
  h_S1x10 : 0 < S1x10.numel
  shapeCasts_S1x10_S10 : S1x10.ShapeCasts S10
  shapeCasts_S10_S1x10 : S10.ShapeCasts S1x10
  bcast_S1x10_S1x10x1_0_1 : S1x10.BroadcastsInDim S1x10x1 (![0, 1] : Fin 2 → Fin S1x10x1.rank)
  bcast_S1x10x1_S1x10x90000_0_1_2 : S1x10x1.BroadcastsInDim S1x10x90000 (![0, 1, 2] : Fin 3 → Fin S1x10x90000.rank)
  shapeCasts_S1x10x90000_S1x10x300x300 : S1x10x90000.ShapeCasts S1x10x300x300
  shapeCasts_S1x10x300x300_S10x300x300 : S1x10x300x300.ShapeCasts S10x300x300
  shapeCasts_S10x300x300_S10x300x30x10 : S10x300x300.ShapeCasts S10x300x30x10
  reducesTo_S10x300x30x10_S10x300x30_d3 : S10x300x30x10.ReducesTo [3] S10x300x30
  h_S_ : 0 < S_.numel
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1x306x306.size a ≤ S1x1x306x306.size a
  hwx0_0 : ∀ i : grid0.Coords, EltTy.bits .f32 = 32 ∨ (Rect.block (s := S1x1x306x306) S1x1x306x306.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x49.size a ≤ S10x49.size a
  hwx0_1 : ∀ i : grid0.Coords, EltTy.bits .f32 = 32 ∨ (Rect.block (s := S10x49) S10x49.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x49.size a ≤ S10x49.size a
  hwx0_2 : ∀ i : grid0.Coords, EltTy.bits .f32 = 32 ∨ (Rect.block (s := S10x49) S10x49.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x10.size a ≤ S1x10.size a
  hwx0_3 : ∀ i : grid0.Coords, EltTy.bits .f32 = 32 ∨ (Rect.block (s := S1x10) S1x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x10.size a ≤ S1x10.size a
  hwx0_4 : ∀ i : grid0.Coords, EltTy.bits .f32 = 32 ∨ (Rect.block (s := S1x10) S1x10.size (cc0_transform_4 i) (hinb0_4 i)).WholeWords (EltTy.packing .f32)

variable [Facts₀]

abbrev win0_0 : Pipeline.Window sig grid0 :=
  Pipeline.Window.ofSpec (Memref.whole main_arg0) S1x1x306x306.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10x49.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S10x49.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x10.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x10.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x1x306x306 : Shape := ⟨4, ![1, 1, 306, 306]⟩
abbrev S10x1x7x7 : Shape := ⟨4, ![10, 1, 7, 7]⟩
abbrev S1x1x300x300 : Shape := ⟨4, ![1, 1, 300, 300]⟩
abbrev S1x1x1x300x300 : Shape := ⟨5, ![1, 1, 1, 300, 300]⟩
abbrev S1x1x7x300x300 : Shape := ⟨5, ![1, 1, 7, 300, 300]⟩
abbrev S1x1x1x7x300x300 : Shape := ⟨6, ![1, 1, 1, 7, 300, 300]⟩
abbrev S1x1x7x7x300x300 : Shape := ⟨6, ![1, 1, 7, 7, 300, 300]⟩
abbrev S1x1x1x7x7x300x300 : Shape := ⟨7, ![1, 1, 1, 7, 7, 300, 300]⟩
abbrev S1x10x1x7x7x1x1 : Shape := ⟨7, ![1, 10, 1, 7, 7, 1, 1]⟩
abbrev S1x10x1x7x7x300x300 : Shape := ⟨7, ![1, 10, 1, 7, 7, 300, 300]⟩
abbrev S_ : Shape := ⟨0, ![]⟩
abbrev S1x10 : Shape := ⟨2, ![1, 10]⟩
abbrev S1x10x1 : Shape := ⟨3, ![1, 10, 1]⟩
abbrev S1x10x90000 : Shape := ⟨3, ![1, 10, 90000]⟩
abbrev S1x10x300x300 : Shape := ⟨4, ![1, 10, 300, 300]⟩
abbrev S10x300x300 : Shape := ⟨3, ![10, 300, 300]⟩
abbrev S10x300x30x10 : Shape := ⟨4, ![10, 300, 30, 10]⟩
abbrev S10x300x30 : Shape := ⟨3, ![10, 300, 30]⟩

abbrev nBuf : Space → Nat
  | .hbm => 149
  | .vmem => 0
  | .smem => 0
  | _ => 0

abbrev hbmTy0_0 (i : Nat) : BufTy := match i % 128 with
  | 0 => ⟨S1x1x306x306, .f32⟩
  | 1 => ⟨S10x1x7x7, .f32⟩
  | 2 => ⟨S10x1x7x7, .f32⟩
  | 3 => ⟨S1x1x300x300, .f32⟩
  | 4 => ⟨S1x1x300x300, .f32⟩
  | 5 => ⟨S1x1x300x300, .f32⟩
  | 6 => ⟨S1x1x300x300, .f32⟩
  | 7 => ⟨S1x1x300x300, .f32⟩
  | 8 => ⟨S1x1x300x300, .f32⟩
  | 9 => ⟨S1x1x300x300, .f32⟩
  | 10 => ⟨S1x1x1x300x300, .f32⟩
  | 11 => ⟨S1x1x1x300x300, .f32⟩
  | 12 => ⟨S1x1x1x300x300, .f32⟩
  | 13 => ⟨S1x1x1x300x300, .f32⟩
  | 14 => ⟨S1x1x1x300x300, .f32⟩
  | 15 => ⟨S1x1x1x300x300, .f32⟩
  | 16 => ⟨S1x1x1x300x300, .f32⟩
  | 17 => ⟨S1x1x7x300x300, .f32⟩
  | 18 => ⟨S1x1x300x300, .f32⟩
  | 19 => ⟨S1x1x300x300, .f32⟩
  | 20 => ⟨S1x1x300x300, .f32⟩
  | 21 => ⟨S1x1x300x300, .f32⟩
  | 22 => ⟨S1x1x300x300, .f32⟩
  | 23 => ⟨S1x1x300x300, .f32⟩
  | 24 => ⟨S1x1x300x300, .f32⟩
  | 25 => ⟨S1x1x1x300x300, .f32⟩
  | 26 => ⟨S1x1x1x300x300, .f32⟩
  | 27 => ⟨S1x1x1x300x300, .f32⟩
  | 28 => ⟨S1x1x1x300x300, .f32⟩
  | 29 => ⟨S1x1x1x300x300, .f32⟩
  | 30 => ⟨S1x1x1x300x300, .f32⟩
  | 31 => ⟨S1x1x1x300x300, .f32⟩
  | 32 => ⟨S1x1x7x300x300, .f32⟩
  | 33 => ⟨S1x1x300x300, .f32⟩
  | 34 => ⟨S1x1x300x300, .f32⟩
  | 35 => ⟨S1x1x300x300, .f32⟩
  | 36 => ⟨S1x1x300x300, .f32⟩
  | 37 => ⟨S1x1x300x300, .f32⟩
  | 38 => ⟨S1x1x300x300, .f32⟩
  | 39 => ⟨S1x1x300x300, .f32⟩
  | 40 => ⟨S1x1x1x300x300, .f32⟩
  | 41 => ⟨S1x1x1x300x300, .f32⟩
  | 42 => ⟨S1x1x1x300x300, .f32⟩
  | 43 => ⟨S1x1x1x300x300, .f32⟩
  | 44 => ⟨S1x1x1x300x300, .f32⟩
  | 45 => ⟨S1x1x1x300x300, .f32⟩
  | 46 => ⟨S1x1x1x300x300, .f32⟩
  | 47 => ⟨S1x1x7x300x300, .f32⟩
  | 48 => ⟨S1x1x300x300, .f32⟩
  | 49 => ⟨S1x1x300x300, .f32⟩
  | 50 => ⟨S1x1x300x300, .f32⟩
  | 51 => ⟨S1x1x300x300, .f32⟩
  | 52 => ⟨S1x1x300x300, .f32⟩
  | 53 => ⟨S1x1x300x300, .f32⟩
  | 54 => ⟨S1x1x300x300, .f32⟩
  | 55 => ⟨S1x1x1x300x300, .f32⟩
  | 56 => ⟨S1x1x1x300x300, .f32⟩
  | 57 => ⟨S1x1x1x300x300, .f32⟩
  | 58 => ⟨S1x1x1x300x300, .f32⟩
  | 59 => ⟨S1x1x1x300x300, .f32⟩
  | 60 => ⟨S1x1x1x300x300, .f32⟩
  | 61 => ⟨S1x1x1x300x300, .f32⟩
  | 62 => ⟨S1x1x7x300x300, .f32⟩
  | 63 => ⟨S1x1x300x300, .f32⟩
  | 64 => ⟨S1x1x300x300, .f32⟩
  | 65 => ⟨S1x1x300x300, .f32⟩
  | 66 => ⟨S1x1x300x300, .f32⟩
  | 67 => ⟨S1x1x300x300, .f32⟩
  | 68 => ⟨S1x1x300x300, .f32⟩
  | 69 => ⟨S1x1x300x300, .f32⟩
  | 70 => ⟨S1x1x1x300x300, .f32⟩
  | 71 => ⟨S1x1x1x300x300, .f32⟩
  | 72 => ⟨S1x1x1x300x300, .f32⟩
  | 73 => ⟨S1x1x1x300x300, .f32⟩
  | 74 => ⟨S1x1x1x300x300, .f32⟩
  | 75 => ⟨S1x1x1x300x300, .f32⟩
  | 76 => ⟨S1x1x1x300x300, .f32⟩
  | 77 => ⟨S1x1x7x300x300, .f32⟩
  | 78 => ⟨S1x1x300x300, .f32⟩
  | 79 => ⟨S1x1x300x300, .f32⟩
  | 80 => ⟨S1x1x300x300, .f32⟩
  | 81 => ⟨S1x1x300x300, .f32⟩
  | 82 => ⟨S1x1x300x300, .f32⟩
  | 83 => ⟨S1x1x300x300, .f32⟩
  | 84 => ⟨S1x1x300x300, .f32⟩
  | 85 => ⟨S1x1x1x300x300, .f32⟩
  | 86 => ⟨S1x1x1x300x300, .f32⟩
  | 87 => ⟨S1x1x1x300x300, .f32⟩
  | 88 => ⟨S1x1x1x300x300, .f32⟩
  | 89 => ⟨S1x1x1x300x300, .f32⟩
  | 90 => ⟨S1x1x1x300x300, .f32⟩
  | 91 => ⟨S1x1x1x300x300, .f32⟩
  | 92 => ⟨S1x1x7x300x300, .f32⟩
  | 93 => ⟨S1x1x300x300, .f32⟩
  | 94 => ⟨S1x1x300x300, .f32⟩
  | 95 => ⟨S1x1x300x300, .f32⟩
  | 96 => ⟨S1x1x300x300, .f32⟩
  | 97 => ⟨S1x1x300x300, .f32⟩
  | 98 => ⟨S1x1x300x300, .f32⟩
  | 99 => ⟨S1x1x300x300, .f32⟩
  | 100 => ⟨S1x1x1x300x300, .f32⟩
  | 101 => ⟨S1x1x1x300x300, .f32⟩
  | 102 => ⟨S1x1x1x300x300, .f32⟩
  | 103 => ⟨S1x1x1x300x300, .f32⟩
  | 104 => ⟨S1x1x1x300x300, .f32⟩
  | 105 => ⟨S1x1x1x300x300, .f32⟩
  | 106 => ⟨S1x1x1x300x300, .f32⟩
  | 107 => ⟨S1x1x7x300x300, .f32⟩
  | 108 => ⟨S1x1x1x7x300x300, .f32⟩
  | 109 => ⟨S1x1x1x7x300x300, .f32⟩
  | 110 => ⟨S1x1x1x7x300x300, .f32⟩
  | 111 => ⟨S1x1x1x7x300x300, .f32⟩
  | 112 => ⟨S1x1x1x7x300x300, .f32⟩
  | 113 => ⟨S1x1x1x7x300x300, .f32⟩
  | 114 => ⟨S1x1x1x7x300x300, .f32⟩
  | 115 => ⟨S1x1x7x7x300x300, .f32⟩
  | 116 => ⟨S1x1x1x7x7x300x300, .f32⟩
  | 117 => ⟨S1x10x1x7x7x1x1, .f32⟩
  | 118 => ⟨S1x10x1x7x7x1x1, .f32⟩
  | 119 => ⟨S1x10x1x7x7x300x300, .f32⟩
  | 120 => ⟨S1x10x1x7x7x300x300, .f32⟩
  | 121 => ⟨S1x10x1x7x7x300x300, .f32⟩
  | 122 => ⟨S_, .f32⟩
  | 123 => ⟨S1x10x1x7x7x300x300, .f32⟩
  | 124 => ⟨S1x10x1x7x7x300x300, .f32⟩
  | 125 => ⟨S_, .f32⟩
  | 126 => ⟨S1x10, .f32⟩
  | 127 => ⟨S1x10x1x7x7x300x300, .f32⟩
  | _ => ⟨S1x1x306x306, .f32⟩

abbrev hbmTy0_1 (i : Nat) : BufTy := match i % 128 with
  | 0 => ⟨S1x10x1x7x7x300x300, .f32⟩
  | 1 => ⟨S1x10x1x7x7x300x300, .f32⟩
  | 2 => ⟨S_, .f32⟩
  | 3 => ⟨S1x10x1x7x7x300x300, .f32⟩
  | 4 => ⟨S1x10x1x7x7x300x300, .f32⟩
  | 5 => ⟨S_, .f32⟩
  | 6 => ⟨S1x10, .f32⟩
  | 7 => ⟨S1x10, .f32⟩
  | 8 => ⟨S1x10x1, .f32⟩
  | 9 => ⟨S1x10x90000, .f32⟩
  | 10 => ⟨S1x10x300x300, .f32⟩
  | 11 => ⟨S1x10x1, .f32⟩
  | 12 => ⟨S1x10x90000, .f32⟩
  | 13 => ⟨S1x10x300x300, .f32⟩
  | 14 => ⟨S1x10x1, .f32⟩
  | 15 => ⟨S1x10x90000, .f32⟩
  | 16 => ⟨S1x10x300x300, .f32⟩
  | 17 => ⟨S10x300x300, .f32⟩
  | 18 => ⟨S10x300x30x10, .f32⟩
  | 19 => ⟨S_, .f32⟩
  | 20 => ⟨S10x300x30, .f32⟩
  | _ => ⟨S1x1x306x306, .f32⟩

abbrev hbmTy (i : Nat) : BufTy := match i / 128 with
  | 0 => hbmTy0_0 i
  | 1 => hbmTy0_1 i
  | _ => ⟨S1x1x306x306, .f32⟩

abbrev bufTy : (tb : Table) → Fin (tcTables nBuf tb) → BufTy
  | .hbm, ⟨i, _⟩ => hbmTy i
  | _, _ => ⟨S1x1x306x306, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_v93 : Ref sig .tc := ⟨.hbm, 96, rfl⟩
abbrev main_v94 : Ref sig .tc := ⟨.hbm, 97, rfl⟩
abbrev main_v95 : Ref sig .tc := ⟨.hbm, 98, rfl⟩
abbrev main_v96 : Ref sig .tc := ⟨.hbm, 99, rfl⟩
abbrev main_v97 : Ref sig .tc := ⟨.hbm, 100, rfl⟩
abbrev main_v98 : Ref sig .tc := ⟨.hbm, 101, rfl⟩
abbrev main_v99 : Ref sig .tc := ⟨.hbm, 102, rfl⟩
abbrev main_v100 : Ref sig .tc := ⟨.hbm, 103, rfl⟩
abbrev main_v101 : Ref sig .tc := ⟨.hbm, 104, rfl⟩
abbrev main_v102 : Ref sig .tc := ⟨.hbm, 105, rfl⟩
abbrev main_v103 : Ref sig .tc := ⟨.hbm, 106, rfl⟩
abbrev main_v104 : Ref sig .tc := ⟨.hbm, 107, rfl⟩
abbrev main_v105 : Ref sig .tc := ⟨.hbm, 108, rfl⟩
abbrev main_v106 : Ref sig .tc := ⟨.hbm, 109, rfl⟩
abbrev main_v107 : Ref sig .tc := ⟨.hbm, 110, rfl⟩
abbrev main_v108 : Ref sig .tc := ⟨.hbm, 111, rfl⟩
abbrev main_v109 : Ref sig .tc := ⟨.hbm, 112, rfl⟩
abbrev main_v110 : Ref sig .tc := ⟨.hbm, 113, rfl⟩
abbrev main_v111 : Ref sig .tc := ⟨.hbm, 114, rfl⟩
abbrev main_v112 : Ref sig .tc := ⟨.hbm, 115, rfl⟩
abbrev main_v113 : Ref sig .tc := ⟨.hbm, 116, rfl⟩
abbrev main_v114 : Ref sig .tc := ⟨.hbm, 117, rfl⟩
abbrev main_v115 : Ref sig .tc := ⟨.hbm, 118, rfl⟩
abbrev main_v116 : Ref sig .tc := ⟨.hbm, 119, rfl⟩
abbrev main_v117 : Ref sig .tc := ⟨.hbm, 120, rfl⟩
abbrev main_v118 : Ref sig .tc := ⟨.hbm, 121, rfl⟩
abbrev main_cst : Ref sig .tc := ⟨.hbm, 122, rfl⟩
abbrev main_v119 : Ref sig .tc := ⟨.hbm, 123, rfl⟩
abbrev main_v120 : Ref sig .tc := ⟨.hbm, 124, rfl⟩
abbrev main_cst_0 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_cst_1 : Ref sig .tc := ⟨.hbm, 130, rfl⟩
abbrev main_v125 : Ref sig .tc := ⟨.hbm, 131, rfl⟩
abbrev main_v126 : Ref sig .tc := ⟨.hbm, 132, rfl⟩
abbrev main_cst_2 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_cst_3 : Ref sig .tc := ⟨.hbm, 147, rfl⟩
abbrev main_v140 : Ref sig .tc := ⟨.hbm, 148, rfl⟩

abbrev nD : Nat := 1
abbrev τ : Topo := Topo.v7x

variable {F : FTy → Type} [FloatOps F]

class Facts₀ : Prop where
  slices_S1x1x306x306_S1x1x300x300_0_0_0_0 : S1x1x306x306.Slices ![0, 0, 0, 0] S1x1x300x300
  slices_S1x1x306x306_S1x1x300x300_0_0_0_1 : S1x1x306x306.Slices ![0, 0, 0, 1] S1x1x300x300
  slices_S1x1x306x306_S1x1x300x300_0_0_0_2 : S1x1x306x306.Slices ![0, 0, 0, 2] S1x1x300x300
  slices_S1x1x306x306_S1x1x300x300_0_0_0_3 : S1x1x306x306.Slices ![0, 0, 0, 3] S1x1x300x300
  slices_S1x1x306x306_S1x1x300x300_0_0_0_4 : S1x1x306x306.Slices ![0, 0, 0, 4] S1x1x300x300
  slices_S1x1x306x306_S1x1x300x300_0_0_0_5 : S1x1x306x306.Slices ![0, 0, 0, 5] S1x1x300x300
  slices_S1x1x306x306_S1x1x300x300_0_0_0_6 : S1x1x306x306.Slices ![0, 0, 0, 6] S1x1x300x300
  bcast_S1x1x300x300_S1x1x1x300x300_0_1_3_4 : S1x1x300x300.BroadcastsInDim S1x1x1x300x300 (![0, 1, 3, 4] : Fin 4 → Fin S1x1x1x300x300.rank)
  concatenates_S1x1x1x300x300_S1x1x1x300x300_S1x1x1x300x300_S1x1x1x300x300_S1x1x1x300x300_S1x1x1x300x300_S1x1x1x300x300_S1x1x7x300x300_d2 : Shape.Concatenates [S1x1x1x300x300, S1x1x1x300x300, S1x1x1x300x300, S1x1x1x300x300, S1x1x1x300x300, S1x1x1x300x300, S1x1x1x300x300] S1x1x7x300x300 2
  slices_S1x1x306x306_S1x1x300x300_0_0_1_0 : S1x1x306x306.Slices ![0, 0, 1, 0] S1x1x300x300
  slices_S1x1x306x306_S1x1x300x300_0_0_1_1 : S1x1x306x306.Slices ![0, 0, 1, 1] S1x1x300x300
  slices_S1x1x306x306_S1x1x300x300_0_0_1_2 : S1x1x306x306.Slices ![0, 0, 1, 2] S1x1x300x300
  slices_S1x1x306x306_S1x1x300x300_0_0_1_3 : S1x1x306x306.Slices ![0, 0, 1, 3] S1x1x300x300
  slices_S1x1x306x306_S1x1x300x300_0_0_1_4 : S1x1x306x306.Slices ![0, 0, 1, 4] S1x1x300x300
  slices_S1x1x306x306_S1x1x300x300_0_0_1_5 : S1x1x306x306.Slices ![0, 0, 1, 5] S1x1x300x300
  slices_S1x1x306x306_S1x1x300x300_0_0_1_6 : S1x1x306x306.Slices ![0, 0, 1, 6] S1x1x300x300
  slices_S1x1x306x306_S1x1x300x300_0_0_2_0 : S1x1x306x306.Slices ![0, 0, 2, 0] S1x1x300x300
  slices_S1x1x306x306_S1x1x300x300_0_0_2_1 : S1x1x306x306.Slices ![0, 0, 2, 1] S1x1x300x300
  slices_S1x1x306x306_S1x1x300x300_0_0_2_2 : S1x1x306x306.Slices ![0, 0, 2, 2] S1x1x300x300
  slices_S1x1x306x306_S1x1x300x300_0_0_2_3 : S1x1x306x306.Slices ![0, 0, 2, 3] S1x1x300x300
  slices_S1x1x306x306_S1x1x300x300_0_0_2_4 : S1x1x306x306.Slices ![0, 0, 2, 4] S1x1x300x300
  slices_S1x1x306x306_S1x1x300x300_0_0_2_5 : S1x1x306x306.Slices ![0, 0, 2, 5] S1x1x300x300
  slices_S1x1x306x306_S1x1x300x300_0_0_2_6 : S1x1x306x306.Slices ![0, 0, 2, 6] S1x1x300x300
  slices_S1x1x306x306_S1x1x300x300_0_0_3_0 : S1x1x306x306.Slices ![0, 0, 3, 0] S1x1x300x300
  slices_S1x1x306x306_S1x1x300x300_0_0_3_1 : S1x1x306x306.Slices ![0, 0, 3, 1] S1x1x300x300
  slices_S1x1x306x306_S1x1x300x300_0_0_3_2 : S1x1x306x306.Slices ![0, 0, 3, 2] S1x1x300x300
  slices_S1x1x306x306_S1x1x300x300_0_0_3_3 : S1x1x306x306.Slices ![0, 0, 3, 3] S1x1x300x300
  slices_S1x1x306x306_S1x1x300x300_0_0_3_4 : S1x1x306x306.Slices ![0, 0, 3, 4] S1x1x300x300
  slices_S1x1x306x306_S1x1x300x300_0_0_3_5 : S1x1x306x306.Slices ![0, 0, 3, 5] S1x1x300x300
  slices_S1x1x306x306_S1x1x300x300_0_0_3_6 : S1x1x306x306.Slices ![0, 0, 3, 6] S1x1x300x300
  slices_S1x1x306x306_S1x1x300x300_0_0_4_0 : S1x1x306x306.Slices ![0, 0, 4, 0] S1x1x300x300
  slices_S1x1x306x306_S1x1x300x300_0_0_4_1 : S1x1x306x306.Slices ![0, 0, 4, 1] S1x1x300x300
  slices_S1x1x306x306_S1x1x300x300_0_0_4_2 : S1x1x306x306.Slices ![0, 0, 4, 2] S1x1x300x300
  slices_S1x1x306x306_S1x1x300x300_0_0_4_3 : S1x1x306x306.Slices ![0, 0, 4, 3] S1x1x300x300
  slices_S1x1x306x306_S1x1x300x300_0_0_4_4 : S1x1x306x306.Slices ![0, 0, 4, 4] S1x1x300x300
  slices_S1x1x306x306_S1x1x300x300_0_0_4_5 : S1x1x306x306.Slices ![0, 0, 4, 5] S1x1x300x300
  slices_S1x1x306x306_S1x1x300x300_0_0_4_6 : S1x1x306x306.Slices ![0, 0, 4, 6] S1x1x300x300
  slices_S1x1x306x306_S1x1x300x300_0_0_5_0 : S1x1x306x306.Slices ![0, 0, 5, 0] S1x1x300x300
  slices_S1x1x306x306_S1x1x300x300_0_0_5_1 : S1x1x306x306.Slices ![0, 0, 5, 1] S1x1x300x300
  slices_S1x1x306x306_S1x1x300x300_0_0_5_2 : S1x1x306x306.Slices ![0, 0, 5, 2] S1x1x300x300
  slices_S1x1x306x306_S1x1x300x300_0_0_5_3 : S1x1x306x306.Slices ![0, 0, 5, 3] S1x1x300x300
  slices_S1x1x306x306_S1x1x300x300_0_0_5_4 : S1x1x306x306.Slices ![0, 0, 5, 4] S1x1x300x300
  slices_S1x1x306x306_S1x1x300x300_0_0_5_5 : S1x1x306x306.Slices ![0, 0, 5, 5] S1x1x300x300
  slices_S1x1x306x306_S1x1x300x300_0_0_5_6 : S1x1x306x306.Slices ![0, 0, 5, 6] S1x1x300x300
  slices_S1x1x306x306_S1x1x300x300_0_0_6_0 : S1x1x306x306.Slices ![0, 0, 6, 0] S1x1x300x300
  slices_S1x1x306x306_S1x1x300x300_0_0_6_1 : S1x1x306x306.Slices ![0, 0, 6, 1] S1x1x300x300
  slices_S1x1x306x306_S1x1x300x300_0_0_6_2 : S1x1x306x306.Slices ![0, 0, 6, 2] S1x1x300x300
  slices_S1x1x306x306_S1x1x300x300_0_0_6_3 : S1x1x306x306.Slices ![0, 0, 6, 3] S1x1x300x300
  slices_S1x1x306x306_S1x1x300x300_0_0_6_4 : S1x1x306x306.Slices ![0, 0, 6, 4] S1x1x300x300
  slices_S1x1x306x306_S1x1x300x300_0_0_6_5 : S1x1x306x306.Slices ![0, 0, 6, 5] S1x1x300x300
  slices_S1x1x306x306_S1x1x300x300_0_0_6_6 : S1x1x306x306.Slices ![0, 0, 6, 6] S1x1x300x300
  bcast_S1x1x7x300x300_S1x1x1x7x300x300_0_1_3_4_5 : S1x1x7x300x300.BroadcastsInDim S1x1x1x7x300x300 (![0, 1, 3, 4, 5] : Fin 5 → Fin S1x1x1x7x300x300.rank)
  concatenates_S1x1x1x7x300x300_S1x1x1x7x300x300_S1x1x1x7x300x300_S1x1x1x7x300x300_S1x1x1x7x300x300_S1x1x1x7x300x300_S1x1x1x7x300x300_S1x1x7x7x300x300_d2 : Shape.Concatenates [S1x1x1x7x300x300, S1x1x1x7x300x300, S1x1x1x7x300x300, S1x1x1x7x300x300, S1x1x1x7x300x300, S1x1x1x7x300x300, S1x1x1x7x300x300] S1x1x7x7x300x300 2
  bcast_S1x1x7x7x300x300_S1x1x1x7x7x300x300_0_2_3_4_5_6 : S1x1x7x7x300x300.BroadcastsInDim S1x1x1x7x7x300x300 (![0, 2, 3, 4, 5, 6] : Fin 6 → Fin S1x1x1x7x7x300x300.rank)
  bcast_S10x1x7x7_S1x10x1x7x7x1x1_1_2_3_4 : S10x1x7x7.BroadcastsInDim S1x10x1x7x7x1x1 (![1, 2, 3, 4] : Fin 4 → Fin S1x10x1x7x7x1x1.rank)
  bcast_S1x1x1x7x7x300x300_S1x10x1x7x7x300x300_0_1_2_3_4_5_6 : S1x1x1x7x7x300x300.BroadcastsInDim S1x10x1x7x7x300x300 (![0, 1, 2, 3, 4, 5, 6] : Fin 7 → Fin S1x10x1x7x7x300x300.rank)
  bcast_S1x10x1x7x7x1x1_S1x10x1x7x7x300x300_0_1_2_3_4_5_6 : S1x10x1x7x7x1x1.BroadcastsInDim S1x10x1x7x7x300x300 (![0, 1, 2, 3, 4, 5, 6] : Fin 7 → Fin S1x10x1x7x7x300x300.rank)
  bcast_S_S1x10x1x7x7x300x300 : S_.BroadcastsInDim S1x10x1x7x7x300x300 (![] : Fin 0 → Fin S1x10x1x7x7x300x300.rank)
  reducesTo_S1x10x1x7x7x300x300_S1x10_d2_3_4_5_6 : S1x10x1x7x7x300x300.ReducesTo [2, 3, 4, 5, 6] S1x10
  h_S_ : 0 < S_.numel
  bcast_S1x10_S1x10x1_0_1 : S1x10.BroadcastsInDim S1x10x1 (![0, 1] : Fin 2 → Fin S1x10x1.rank)
  bcast_S1x10x1_S1x10x90000_0_1_2 : S1x10x1.BroadcastsInDim S1x10x90000 (![0, 1, 2] : Fin 3 → Fin S1x10x90000.rank)
  shapeCasts_S1x10x90000_S1x10x300x300 : S1x10x90000.ShapeCasts S1x10x300x300
  shapeCasts_S1x10x300x300_S10x300x300 : S1x10x300x300.ShapeCasts S10x300x300
  shapeCasts_S10x300x300_S10x300x30x10 : S10x300x300.ShapeCasts S10x300x30x10
  reducesTo_S10x300x30x10_S10x300x30_d3 : S10x300x30x10.ReducesTo [3] S10x300x30

variable [Facts₀]

class Facts : Prop extends Facts₀ where

variable [Facts]
-- ==== Proof.KernelOps.lean ====
/-
  The layout steps of one tap of the kernel's body, read at an index given by coordinates.

  A tap `(u, v)` takes the image as a 306 × 306 matrix, keeps the 300 columns from `v` and then the 300 rows from `u`,
  and spreads that plane over the ten channels; it takes column `7u + v` of the 10 × 49 matrix of structuring
  elements and spreads it over the plane. Each step read at coordinates returns its operand at the coordinates that
  remain — a slice shifts a coordinate by its offset, a cast to or from a unit axis keeps the row-major position, a
  spread reads the unit axes at zero.
-/
import proofs.«178146_j65755949302191_2_alg».proof.Proof.Gen.KernelIdeal
import Idealize.ShloMosaic.Lib.Pipeline.Value
import Idealize.ShloMosaic.Lib.ValueIdx

noncomputable section

namespace Cert.Morph.Ker

open Cert.KernelIdeal Idealize.ShloMosaic Idealize.ShloMosaic.ValueIdx

variable {α : Type}

/-- A row slice at offset `a` fits: `a + 300 ≤ 306`. -/
theorem rowOff_le {a : Nat} (h : S306x300.Slices ![a, 0] S300x300) : a + 300 ≤ 306 := by
  obtain ⟨hr, hh⟩ := h
  exact hh ⟨0, by decide⟩

/-- A column slice at offset `b` fits: `b + 300 ≤ 306`. -/
theorem colOff_le {b : Nat} (h : S306x306.Slices ![0, b] S306x300) : b + 300 ≤ 306 := by
  obtain ⟨hr, hh⟩ := h
  exact hh ⟨1, by decide⟩

/-- A plane spread over the channels reads, at (o, r, c), the plane at (0, r, c). -/
theorem spreadPlane_apply (w : S1x300x300.Idx → α) (h : S1x300x300.Broadcasts S10x300x300) (o : Fin 10) (r c : Fin 300) :
    broadcastTo S10x300x300 w h (ix3 o r c) = w (ix3 (0 : Fin 1) r c) :=
  broadcastTo_apply w h (ix3 o r c) (ix3 (0 : Fin 1) r c) fun ax => match ax with
    | ⟨0, _⟩ => by show (0 : Nat) = if (1 : Nat) = 1 then 0 else _; rw [if_pos rfl]
    | ⟨1, _⟩ => by show r.val = if (300 : Nat) = 1 then 0 else r.val; rw [if_neg (by decide)]
    | ⟨2, _⟩ => by show c.val = if (300 : Nat) = 1 then 0 else c.val; rw [if_neg (by decide)]

/-- A matrix given a leading unit axis reads, at (z, r, c), the matrix at (r, c). -/
theorem castPlane_apply (w : S300x300.Idx → α) (h : S300x300.ShapeCasts S1x300x300) (z : Fin 1) (r c : Fin 300) :
    shapeCast S1x300x300 w h (ix3 z r c) = w (ix2 r c) :=
  shapeCast_apply w h _ _ (by
    have hz : z.val = 0 := by omega
    rw [Shape.rowMajor_val_three, Shape.rowMajor_val_two]
    show r.val * 300 + c.val = (z.val * 300 + r.val) * 300 + c.val
    rw [hz]; omega)

/-- The rows from `a` of a 306 × 300 matrix, read at (r, c): the matrix at (a + r, c). -/
theorem rows_apply (a : Nat) (w : S306x300.Idx → α) (h : S306x300.Slices ![a, 0] S300x300) (r c : Fin 300) :
    extractStridedSlice S300x300 ![a, 0] w h (ix2 r c)
      = w (ix2 (⟨a + r.val, by have := rowOff_le h; omega⟩ : Fin 306) c) :=
  extractStridedSlice_apply _ w h _ _ fun ax => match ax with
    | ⟨0, _⟩ => rfl
    | ⟨1, _⟩ => by show c.val = 0 + c.val; omega

/-- The columns from `b` of a 306 × 306 matrix, read at (R, c): the matrix at (R, b + c). -/
theorem cols_apply (b : Nat) (w : S306x306.Idx → α) (h : S306x306.Slices ![0, b] S306x300) (R : Fin 306) (c : Fin 300) :
    extractStridedSlice S306x300 ![0, b] w h (ix2 R c)
      = w (ix2 R (⟨b + c.val, by have := colOff_le h; omega⟩ : Fin 306)) :=
  extractStridedSlice_apply _ w h _ _ fun ax => match ax with
    | ⟨0, _⟩ => by show R.val = 0 + R.val; omega
    | ⟨1, _⟩ => rfl

/-- The image without its two unit axes, read at (R, C): the image at (0, 0, R, C). -/
theorem castImage_apply (x : S1x1x306x306.Idx → α) (h : S1x1x306x306.ShapeCasts S306x306) (R C : Fin 306) :
    shapeCast S306x306 x h (ix2 R C) = x (ix4 (0 : Fin 1) (0 : Fin 1) R C) :=
  shapeCast_apply x h _ _ (by
    rw [Shape.rowMajor_val_four, Shape.rowMajor_val_two]
    show ((0 * 1 + 0) * 306 + R.val) * 306 + C.val = R.val * 306 + C.val
    omega)

/-- A column of ten entries spread over the planes reads, at (o, r, c), entry (o, 0, 0). -/
theorem spreadCol_apply (w : S10x1x1.Idx → α) (h : S10x1x1.Broadcasts S10x300x300) (o : Fin 10) (r c : Fin 300) :
    broadcastTo S10x300x300 w h (ix3 o r c) = w (ix3 o (0 : Fin 1) (0 : Fin 1)) :=
  broadcastTo_apply w h (ix3 o r c) (ix3 o (0 : Fin 1) (0 : Fin 1)) fun ax => match ax with
    | ⟨0, _⟩ => by show o.val = if (10 : Nat) = 1 then 0 else o.val; rw [if_neg (by decide)]
    | ⟨1, _⟩ => by show (0 : Nat) = if (1 : Nat) = 1 then 0 else _; rw [if_pos rfl]
    | ⟨2, _⟩ => by show (0 : Nat) = if (1 : Nat) = 1 then 0 else _; rw [if_pos rfl]

/-- Ten entries given two trailing unit axes read, at (o, z, z'), entry o. -/
theorem castCol3_apply (w : S10.Idx → α) (h : S10.ShapeCasts S10x1x1) (o : Fin 10) (z z' : Fin 1) :
    shapeCast S10x1x1 w h (ix3 o z z') = w (ix1 o) :=
  shapeCast_apply w h _ _ (by
    have hz : z.val = 0 := by omega
    have hz' : z'.val = 0 := by omega
    rw [Shape.rowMajor_val_three, Shape.rowMajor_val_one]
    show o.val = (o.val * 1 + z.val) * 1 + z'.val
    rw [hz, hz']; omega)

/-- A 10 × 1 column without its unit axis reads, at o, entry (o, 0). -/
theorem castCol1_apply (w : S10x1.Idx → α) (h : S10x1.ShapeCasts S10) (o : Fin 10) :
    shapeCast S10 w h (ix1 o) = w (ix2 o (0 : Fin 1)) :=
  shapeCast_apply w h _ _ (by
    rw [Shape.rowMajor_val_two, Shape.rowMajor_val_one]
    show o.val * 1 + 0 = o.val
    omega)

/-- The position, in the 10 × 49 matrix, of entry (o, z) of its column `t` taken as a 10 × 1 block: (o, t). -/
theorem loadCol_idx (t : Nat) (inb : ∀ a, (![0, t] : Fin 2 → Nat) a + S10x1.size a ≤ S10x49.size a) (o : Fin 10) (z : Fin 1) :
    (Rect.unit (s := S10x49) ![0, t] S10x1.size inb).idx (ix2 o z)
      = ix2 o (⟨t, by have := inb ⟨1, by decide⟩; show t < 49; have e : (![0, t] : Fin 2 → Nat) ⟨1, by decide⟩ + S10x1.size ⟨1, by decide⟩ = t + 1 := rfl; have e' : S10x49.size ⟨1, by decide⟩ = 49 := rfl; omega⟩ : Fin 49) := by
  refine funext fun ax => Fin.ext ?_
  match ax with
  | ⟨0, _⟩ => show 0 + 1 * o.val = o.val; omega
  | ⟨1, _⟩ => show t + 1 * z.val = t; have : z.val = 0 := by omega
              rw [this]; omega

/-- Column `t` of the 10 × 49 matrix, loaded as a 10 × 1 block and read without its unit axis: at o, the matrix at (o, t). -/
theorem castLoadCol_apply (t : Nat) (x : Vec Ideal S10x49 .f32) (inb : ∀ a, (![0, t] : Fin 2 → Nat) a + S10x1.size a ≤ S10x49.size a)
    (h : S10x1.ShapeCasts S10) (o : Fin 10) :
    shapeCast S10 (View.ld (Val := Elt Ideal) (e' := .f32) x (Rect.unit (s := S10x49) ![0, t] S10x1.size inb)) h (ix1 o)
      = x (ix2 o (⟨t, by have := inb ⟨1, by decide⟩; show t < 49; have e : (![0, t] : Fin 2 → Nat) ⟨1, by decide⟩ + S10x1.size ⟨1, by decide⟩ = t + 1 := rfl; have e' : S10x49.size ⟨1, by decide⟩ = 49 := rfl; omega⟩ : Fin 49)) :=
  (castCol1_apply _ h o).trans (congrArg x (loadCol_idx t inb o 0))

/-- Ten entries laid as a row read, at (z, o), entry o. -/
theorem castRow_apply (w : S10.Idx → α) (h : S10.ShapeCasts S1x10) (z : Fin 1) (o : Fin 10) :
    shapeCast S1x10 w h (ix2 z o) = w (ix1 o) :=
  shapeCast_apply w h _ _ (by
    have hz : z.val = 0 := by omega
    rw [Shape.rowMajor_val_two, Shape.rowMajor_val_one]
    show o.val = z.val * 10 + o.val
    rw [hz]; omega)

end Cert.Morph.Ker

end
-- ==== Proof.MorphSpec.lean ====
/-
  The hit / miss sums of a morphological 7×7 layer, as one function of the argument arrays.

  For an image `x` of 306 × 306 pixels and ten 7 × 7 structuring elements `k o`, the layer's response of channel `o` is
  the sum, over the 300 × 300 window positions `(r, c)` and the 49 taps `(u, v)`, of `g (x (u + r, v + c) − k o (u, v))`,
  where `g` is `min · 0` for the hit sum and `max · 0` for the miss sum. Addition of extended reals is commutative and
  associative, so the order in which the 49 · 90000 terms are added does not matter: a running sum over the taps
  taken first and the positions after, or one sum over all of them at once, give the same value. Nothing here needs
  the entries to be finite.
-/
import Idealize.ShloMosaic.PureOps.Ideal
import Idealize.ShloMosaic.Lib.ValueIdx

noncomputable section

namespace Cert.Morph

open Idealize.ShloMosaic Idealize.ShloMosaic.ValueIdx

/-- The image's shape, the structuring elements' shape, and the response's. -/
abbrev SImg : Shape := ⟨4, ![1, 1, 306, 306]⟩
abbrev SElt : Shape := ⟨4, ![10, 1, 7, 7]⟩
abbrev SOut : Shape := ⟨2, ![1, 10]⟩

/-- The pixel under tap `(u, v)` of the window at `(r, c)`. -/
def pix (u v : Fin 7) (r c : Fin 300) : SImg.Idx :=
  ix4 (0 : Fin 1) (0 : Fin 1) (⟨u.val + r.val, by omega⟩ : Fin 306) (⟨v.val + c.val, by omega⟩ : Fin 306)

/-- Tap `(u, v)` of structuring element `o`. -/
def tap (o : Fin 10) (u v : Fin 7) : SElt.Idx := ix4 o (0 : Fin 1) u v

/-- One term: `g` of the pixel minus the tap. -/
def term (g : EReal → EReal) (x : SImg.Idx → EReal) (k : SElt.Idx → EReal) (o : Fin 10) (u v : Fin 7) (r c : Fin 300) : EReal :=
  g (x (pix u v r c) - k (tap o u v))

/-- The response of channel `o`: all terms added, positions outermost, taps innermost (column of the tap before its row). -/
def total (g : EReal → EReal) (x : SImg.Idx → EReal) (k : SElt.Idx → EReal) (o : Fin 10) : EReal :=
  ∑ r : Fin 300, ∑ c : Fin 300, ∑ v : Fin 7, ∑ u : Fin 7, term g x k o u v r c

/-- The response as a `[1, 10]` array. -/
def response (g : EReal → EReal) (x : SImg.Idx → EReal) (k : SElt.Idx → EReal) : SOut.Idx → EReal :=
  fun j => total g x k (j 1)

/-- The same total as ONE sum over the quadruples (position, tap): a sum over a product of finite types is the iterated sum. -/
theorem total_eq_sum_prod (g : EReal → EReal) (x : SImg.Idx → EReal) (k : SElt.Idx → EReal) (o : Fin 10) :
    total g x k o = ∑ p : Fin 300 × Fin 300 × Fin 7 × Fin 7, term g x k o p.2.2.2 p.2.2.1 p.1 p.2.1 := by
  unfold total
  simp only [Fintype.sum_prod_type]

/-- A running sum over the 49 taps started at zero — the taps taken column by column, each column top to bottom — is the
    double sum over the tap's column and row. -/
theorem running_eq_sum (F : Fin 7 → Fin 7 → EReal) :
    0 + F 0 0 + F 1 0 + F 2 0 + F 3 0 + F 4 0 + F 5 0 + F 6 0
      + F 0 1 + F 1 1 + F 2 1 + F 3 1 + F 4 1 + F 5 1 + F 6 1
      + F 0 2 + F 1 2 + F 2 2 + F 3 2 + F 4 2 + F 5 2 + F 6 2
      + F 0 3 + F 1 3 + F 2 3 + F 3 3 + F 4 3 + F 5 3 + F 6 3
      + F 0 4 + F 1 4 + F 2 4 + F 3 4 + F 4 4 + F 5 4 + F 6 4
      + F 0 5 + F 1 5 + F 2 5 + F 3 5 + F 4 5 + F 5 5 + F 6 5
      + F 0 6 + F 1 6 + F 2 6 + F 3 6 + F 4 6 + F 5 6 + F 6 6
      = ∑ v : Fin 7, ∑ u : Fin 7, F u v := by
  simp only [Fin.sum_univ_seven, zero_add, add_assoc]

end Cert.Morph

end
-- ==== Proof.LibAxisLayout.lean ====
/-
  Three-axis layout operations and single-axis reductions read at an index given by coordinates.

  A reduction of an [a, b, c] array along its middle or last axis leaves an [a, c] or [a, b] array; kept as a
  unit axis it is re-laid as [a, 1, c] or [a, b, 1] and broadcast back to [a, b, c]. Read at (i, j, k) each cast
  returns the operand's entry at the coordinates that remain — a unit coordinate is zero, so the row-major
  position is unchanged — and each broadcast reads the unit axis at 0 and the other axes at the result's own
  coordinates. A reduction over one axis, read at the kept coordinates, ranges over the dropped coordinate put
  back in its place.
-/
import Idealize.ShloMosaic.Lib.Pipeline.Value
import Idealize.ShloMosaic.Lib.ValueIdx
import Idealize.ShloMosaic.PureOps.Ideal.Laws

namespace Cert.Lib.AxisLayout

open Idealize.ShloMosaic Idealize.ShloMosaic.ValueIdx

variable {α : Type}

/-- Two indices of a one-axis shape with the same coordinate are equal. -/
theorem ext1 {n0 : ℕ} {f g : (⟨1, ![n0]⟩ : Shape).Idx} (h0 : (f 0).val = (g 0).val) : f = g :=
  funext fun a => Fin.ext (by match a with | ⟨0, _⟩ => exact h0)

/-- Two indices of a two-axis shape with the same coordinates are equal. -/
theorem ext2 {n0 n1 : ℕ} {f g : (⟨2, ![n0, n1]⟩ : Shape).Idx} (h0 : (f 0).val = (g 0).val) (h1 : (f 1).val = (g 1).val) : f = g :=
  funext fun a => Fin.ext (by match a with | ⟨0, _⟩ => exact h0 | ⟨1, _⟩ => exact h1)

/-- Two indices of a three-axis shape with the same coordinates are equal. -/
theorem ext3 {n0 n1 n2 : ℕ} {f g : (⟨3, ![n0, n1, n2]⟩ : Shape).Idx} (h0 : (f 0).val = (g 0).val) (h1 : (f 1).val = (g 1).val)
    (h2 : (f 2).val = (g 2).val) : f = g :=
  funext fun a => Fin.ext (by match a with | ⟨0, _⟩ => exact h0 | ⟨1, _⟩ => exact h1 | ⟨2, _⟩ => exact h2)

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, 1, c] array cast to [a, c] reads, at (i, k), the operand at (i, 0, k). -/
theorem shapeCast_a1c_ac_apply {a c : ℕ} (x : (⟨3, ![a, 1, c]⟩ : Shape).Idx → α)
    (h : (⟨3, ![a, 1, c]⟩ : Shape).ShapeCasts ⟨2, ![a, c]⟩) (i : Fin a) (k : Fin c) :
    shapeCast ⟨2, ![a, c]⟩ x h (ix2 i k) = x (ix3 i (0 : Fin 1) k) :=
  shapeCast_apply x h _ _ (by
    rw [Shape.rowMajor_val_three, Shape.rowMajor_val_two]
    show (i.val * 1 + 0) * c + k.val = i.val * c + k.val
    rw [Nat.mul_one, Nat.add_zero])

/-- An [a, b, 1] array broadcast to [a, b, c] reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An [a, 1, c] array broadcast to [a, b, c] reads, at (i, j, k), the operand at (i, 0, k). -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- Dropping the middle axis of [a, b, c]: the kept index (i, k) with coordinate j put back is (i, j, k). -/
theorem lift_abc_mid {a b c : ℕ} (h : (⟨3, ![a, b, c]⟩ : Shape).Reduces [1] (⟨2, ![a, c]⟩ : Shape)) (i : Fin a) (k : Fin c)
    (j : Fin ((⟨3, ![a, b, c]⟩ : Shape).size 1)) : h.lift (ix2 i k) j = ix3 i (⟨j.val, j.isLt⟩ : Fin b) k := by
  funext d; apply Fin.ext
  fin_cases d <;> rfl

/-- Dropping the last axis of [a, b, c]: the kept index (i, j) with coordinate k put back is (i, j, k). -/
theorem lift_abc_last {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext d; apply Fin.ext
  fin_cases d <;> rfl

/-- Dropping the last axis of [a, b]: the kept index i with coordinate k put back is (i, k). -/
theorem lift_ab_last {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext d; apply Fin.ext
  fin_cases d <;> rfl

variable {φ : FTy}

/-- A sum along the middle axis of [a, b, c], at (i, k), is the sum over j of the entries (i, j, k). -/
theorem sum_mid_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (lift_abc_mid h i k j))

/-- A sum along the last axis of [a, b, c], at (i, j), is the sum over k of the entries (i, j, k). -/
theorem sum_last_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_abc_last h i j k))

/-- A sum along the last axis of [a, b], at i, is the sum over k of the entries (i, k). -/
theorem sum_row_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_ab_last h i k))

/-- A maximum along the middle axis of [a, b, c], at (i, k): the fold of max from the start value over the entries (i, j, k). -/
theorem max_mid_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (i : Fin a) (k : Fin c) :
    multiReduction .maximumf [1] ⟨2, ![a, c]⟩ src acc h hφ hacc (ix2 i k)
      = (Finset.univ : Finset (Fin b)).fold max (Ideal.ofBits φ acc) (fun j => src (ix3 i j k)) :=
  (Ideal.multiReduction_maximumf_single src acc h hφ hacc (ix2 i k)).trans
    (congrArg (fun f => (Finset.univ : Finset (Fin b)).fold max (Ideal.ofBits φ acc) f)
      (funext fun j => congrArg src (lift_abc_mid h i k j)))

/-- A maximum along the last axis of [a, b, c], at (i, j): the fold of max from the start value over the entries (i, j, k). -/
theorem max_last_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun k => src (ix3 i j k)) :=
  (Ideal.multiReduction_maximumf_single src acc h hφ hacc (ix2 i j)).trans
    (congrArg (fun f => (Finset.univ : Finset (Fin c)).fold max (Ideal.ofBits φ acc) f)
      (funext fun k => congrArg src (lift_abc_last h i j k)))

end Cert.Lib.AxisLayout
-- ==== Proof.KernelSums.lean ====
/-
  What the kernel leaves in its two output blocks, entry by entry.

  The body zeroes two accumulators of shape [10, 300, 300], then for each of the 49 taps — the tap's column outermost,
  its row innermost — adds to the first, at (o, r, c), `min (x (u + r, v + c) − k o (7u + v), 0)`, and to the second the
  same with `max` and the other matrix of structuring elements; at the end it sums each accumulator over c and then
  over r and stores the ten sums as a row. Every load of an accumulator reads what the last store left, so the row's
  entry o is the sum over (r, c) of the running sum over the taps started at zero, which is the double sum over the
  taps.
-/
import proofs.«178146_j65755949302191_2_alg».proof.Proof.Gen.KernelIdeal.Frame
import proofs.«178146_j65755949302191_2_alg».proof.Proof.KernelOps
import proofs.«178146_j65755949302191_2_alg».proof.Proof.MorphSpec
import proofs.«178146_j65755949302191_2_alg».proof.Proof.LibAxisLayout
import Idealize.ShloMosaic.PureOps.Ideal.Laws

set_option maxRecDepth 16384

noncomputable section

namespace Cert.Morph.Ker

open Cert.KernelIdeal Cert.KernelIdeal.Gen Idealize.ShloMosaic Idealize.ShloMosaic.TcCoe Idealize.ShloMosaic.Tactic
open Idealize.ShloMosaic.ValueIdx Idealize.SL Idealize.SL.Sem Cert.Lib.AxisLayout Cert.Morph

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A load of the whole buffer after a store of the whole buffer reads what was stored last, whatever was stored before. -/
theorem readCov_cons_whole {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- The sum along the lanes of an accumulator, at (o, r): the sum over c of its entries (o, r, c). -/
theorem sumLanes_apply (src : FVec Ideal S10x300x300 .f32) (h : S10x300x300.Reduces [2] S10x300) (hφ : FKind.Formats .f32)
    (hacc : (0x00000000#32 : BitVec 32) = 0x00000000#32) (o : Fin 10) (r : Fin 300) :
    multiReduction .add [2] S10x300 src 0x00000000#32 h hφ hacc (ix2 o r) = ∑ c : Fin 300, src (ix3 o r c) :=
  sum_last_apply src _ h hφ hacc o r

/-- The sum along the rows of the lane sums, at o: the sum over r of its entries (o, r). -/
theorem sumRows_apply (src : FVec Ideal S10x300 .f32) (h : S10x300.Reduces [1] S10) (hφ : FKind.Formats .f32)
    (hacc : (0x00000000#32 : BitVec 32) = 0x00000000#32) (o : Fin 10) :
    multiReduction .add [1] S10 src 0x00000000#32 h hφ hacc (ix1 o) = ∑ r : Fin 300, src (ix2 o r) :=
  sum_row_apply src _ h hφ hacc o

/-- One term as the kernel computes it: `g` of the pixel under the tap minus entry `7u + v` of row `o` of the 10 × 49 matrix. -/
def kterm (g : EReal → EReal) (x : S1x1x306x306.Idx → EReal) (k : S10x49.Idx → EReal) (o : Fin 10) (u v : Fin 7) (r c : Fin 300) : EReal :=
  g (x (pix u v r c) - k (ix2 o (⟨7 * u.val + v.val, by omega⟩ : Fin 49)))

set_option maxHeartbeats 4000000 in
/-- The first output block's entry o: the sum over the window positions and the taps of `min (pixel − tap, 0)`. -/
theorem hit_apply (c : Dev nD) (i : grid0.Coords) (arg1 : Memref sig .tc .vmem S1x1x306x306 .f32) (harg1 : arg1.IsWhole) (arg2 : Memref sig .tc .vmem S10x49 .f32) (harg2 : arg2.IsWhole) (arg3 : Memref sig .tc .vmem S10x49 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S10x300x300 .f32) (harg6 : arg6.IsWhole) (arg7 : Memref sig .tc .vmem S10x300x300 .f32) (harg7 : arg7.IsWhole)
    (x0 : Vec Ideal S1x1x306x306 .f32) (x1 : Vec Ideal S10x49 .f32) (x2 : Vec Ideal S10x49 .f32) (o : Fin 10) :
    out0_A_3 (F := Ideal) c i arg1 harg1 arg2 harg2 arg3 harg3 arg4 harg4 arg5 harg5 arg6 harg6 arg7 harg7 x0 x1 x2 (ix2 (0 : Fin 1) o)
      = ∑ r : Fin 300, ∑ c : Fin 300, ∑ v : Fin 7, ∑ u : Fin 7, kterm (fun t => min t 0) x0 x1 o u v r c := by
  unfold out0_A_3
  rw [View.read_writes_eq_canon _ _ _ (cover0_A_3 c i arg1 harg1 arg2 harg2 arg3 harg3 arg4 harg4 arg5 harg5 arg6 harg6 arg7 harg7 x0 x1 x2)]
  unfold kernelRun0_A
  dsimp only
  sl_unfold_words
  rw [View.canon_unit_zero hz2]
  simp only [readCov_cons_whole (S := S10x300x300) _ hz3, View.readAt_eq_ld, harg1.read_unread, harg2.read_unread, harg3.read_unread,
    View.ld_unit_zero (S := S1x1x306x306) hz4]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230]
  rw [castRow_apply, sumRows_apply]
  refine (Finset.sum_congr rfl fun r _ => sumLanes_apply _ _ _ _ o r).trans ?_
  refine Finset.sum_congr rfl fun r _ => Finset.sum_congr rfl fun c _ => ?_
  simp only [shapeCast_self, addf_apply, subf_apply, minimumf_apply, maximumf_apply,
    broadcast_apply, spreadPlane_apply, castPlane_apply, rows_apply, cols_apply, castImage_apply, spreadCol_apply, castCol3_apply,
    Ideal.ofBits_def, Ideal.ofBits_zero_f32]
  repeat rw [castLoadCol_apply]
  exact running_eq_sum fun u v => kterm (fun t => min t 0) x0 x1 o u v r c

set_option maxHeartbeats 4000000 in
/-- The second output block's entry o: the sum over the window positions and the taps of `max (pixel − tap, 0)`. -/
theorem miss_apply (c : Dev nD) (i : grid0.Coords) (arg1 : Memref sig .tc .vmem S1x1x306x306 .f32) (harg1 : arg1.IsWhole) (arg2 : Memref sig .tc .vmem S10x49 .f32) (harg2 : arg2.IsWhole) (arg3 : Memref sig .tc .vmem S10x49 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S10x300x300 .f32) (harg6 : arg6.IsWhole) (arg7 : Memref sig .tc .vmem S10x300x300 .f32) (harg7 : arg7.IsWhole)
    (x0 : Vec Ideal S1x1x306x306 .f32) (x1 : Vec Ideal S10x49 .f32) (x2 : Vec Ideal S10x49 .f32) (o : Fin 10) :
    out0_A_4 (F := Ideal) c i arg1 harg1 arg2 harg2 arg3 harg3 arg4 harg4 arg5 harg5 arg6 harg6 arg7 harg7 x0 x1 x2 (ix2 (0 : Fin 1) o)
      = ∑ r : Fin 300, ∑ c : Fin 300, ∑ v : Fin 7, ∑ u : Fin 7, kterm (fun t => max t 0) x0 x2 o u v r c := by
  unfold out0_A_4
  rw [View.read_writes_eq_canon _ _ _ (cover0_A_4 c i arg1 harg1 arg2 harg2 arg3 harg3 arg4 harg4 arg5 harg5 arg6 harg6 arg7 harg7 x0 x1 x2)]
  unfold kernelRun0_A
  dsimp only
  sl_unfold_words
  rw [View.canon_unit_zero hz2]
  simp only [readCov_cons_whole (S := S10x300x300) _ hz3, View.readAt_eq_ld, harg1.read_unread, harg2.read_unread, harg3.read_unread,
    View.ld_unit_zero (S := S1x1x306x306) hz4]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230]
  rw [castRow_apply, sumRows_apply]
  refine (Finset.sum_congr rfl fun r _ => sumLanes_apply _ _ _ _ o r).trans ?_
  refine Finset.sum_congr rfl fun r _ => Finset.sum_congr rfl fun c _ => ?_
  simp only [shapeCast_self, addf_apply, subf_apply, minimumf_apply, maximumf_apply,
    broadcast_apply, spreadPlane_apply, castPlane_apply, rows_apply, cols_apply, castImage_apply, spreadCol_apply, castCol3_apply,
    Ideal.ofBits_def, Ideal.ofBits_zero_f32]
  repeat rw [castLoadCol_apply]
  exact running_eq_sum fun u v => kterm (fun t => max t 0) x0 x2 o u v r c

end Cert.Morph.Ker

end
-- ==== Proof.MorphTail.lean ====
/-
  What both programs do with the two responses: the feature maps.

  From the hit row `h` and the miss row `s` (each [1, 10]) the layer returns three arrays: `h` and `s` each spread, channel by
  channel, over a 300 × 300 map, and the map of `h − s` pooled by maximum over windows of ten along its last axis. They
  are one function of the two rows, written here once so that the two programs' results are compared by comparing rows.
-/
import Idealize.ShloMosaic.PureOps.Ideal
import Idealize.ShloMosaic.Lib.ValueIdx

noncomputable section

namespace Cert.Morph

open Idealize.ShloMosaic

variable {F : FTy → Type} [FloatOps F]

/-- A row [1, 10] spread over a [1, 10, 300, 300] map: entry (0, o, r, c) is the row's entry o. -/
def spreadMap (v : FVec F ⟨2, ![1, 10]⟩ .f32) : FVec F ⟨4, ![1, 10, 300, 300]⟩ .f32 :=
  shapeCast ⟨4, ![1, 10, 300, 300]⟩
    (broadcastInDim ⟨3, ![1, 10, 90000]⟩ ![0, 1, 2] (by decide)
      (broadcastInDim (s := ⟨2, ![1, 10]⟩) ⟨3, ![1, 10, 1]⟩ ![0, 1] (by decide) v)) (by decide)

/-- The map of the difference of two rows, pooled by maximum over windows of ten along the last axis, from minus infinity. -/
def pooledMap (h s : FVec F ⟨2, ![1, 10]⟩ .f32) : FVec F ⟨3, ![10, 300, 30]⟩ .f32 :=
  Host.reduce FloatOps.maximumf
    (shapeCast ⟨4, ![10, 300, 30, 10]⟩ (shapeCast ⟨3, ![10, 300, 300]⟩ (spreadMap (subf h s)) (by decide)) (by decide))
    (constant (F := F) ⟨0, ![]⟩ .f32 0xFF800000#32) (by decide : (⟨4, ![10, 300, 30, 10]⟩ : Shape).ReducesTo [3] ⟨3, ![10, 300, 30]⟩) (by decide)

end Cert.Morph

end
-- ==== Proof.KernelRun.lean ====
/-
  The kernel's run, read: its three results as the feature maps of the two responses.

  The grid has one point, and each output block is the whole [1, 10] row, so after the region the two output arrays hold
  what the body left in its staging rows; the image window's block is the whole image, and the blocks of the two 10 × 49
  matrices are the structuring elements re-laid row by row, so entry 7u + v of row o is tap (u, v) of element o. The
  operations after the region then build the feature maps from the two rows.
-/
import proofs.«178146_j65755949302191_2_alg».proof.Proof.Gen.KernelIdeal.Frame
import proofs.«178146_j65755949302191_2_alg».proof.Proof.KernelSums
import proofs.«178146_j65755949302191_2_alg».proof.Proof.MorphTail
import Idealize.ShloMosaic.Lib.Pipeline.Value
import Idealize.ShloMosaic.Lib.StableHlo.Run

set_option maxRecDepth 16384

noncomputable section

namespace Cert.Morph.Ker

open Cert.KernelIdeal Cert.KernelIdeal.Gen Idealize.ShloMosaic Idealize.ShloMosaic.TcCoe Idealize.ShloMosaic.Tactic
open Idealize.ShloMosaic.ValueIdx Idealize.SL Idealize.SL.Sem Cert.Morph

variable (m : (ℓ : Loc nD τ sig) → Buf (Elt Ideal) ℓ) (ρ : Dev nD → PrngReg)

/-- The one point of the grid. -/
abbrev pt : Fin cfg0.N := t0_0

/-- Every point is that point. -/
theorem eq_pt (t : Fin cfg0.N) : t = pt := Fin.ext (by
  have h := t.isLt
  have hN : cfg0.N = 1 := N_0
  show t.val = 0
  omega)

/-- The image as the body finds it. -/
abbrev img (c : Dev nD) : S1x1x306x306.Idx → EReal := m ((c : Thread nD τ).loc main_arg0)
/-- The two families of structuring elements as launched. -/
abbrev eltsHit (c : Dev nD) : S10x1x7x7.Idx → EReal := m ((c : Thread nD τ).loc main_arg1)
abbrev eltsMiss (c : Dev nD) : S10x1x7x7.Idx → EReal := m ((c : Thread nD τ).loc main_arg2)

/-! ## The input blocks -/

/-- The image window's one block is the image. -/
theorem iblk0_eq (c : Dev nD) : iblk m c 0 pt = img m c := by
  unfold iblk
  have hz' : (fun a => win0_0.index pt a * main_arg0.ty.shape.size a) = fun _ => 0 := funext fun a => by fin_cases a <;> decide
  exact (Memref.read_access_unit_zero (Elt Ideal) main_arg0 hz' (fun a => by rw [congrFun hz' a]; simp) (V m c main_arg0)).trans
    (V_main_arg0 m c)

/-- The 10 × 49 matrix of the hit elements, as the region finds it: the elements re-laid. -/
theorem V_main_v0 (c : Dev nD) :
    (V m c main_v0 : S10x49.Idx → EReal) = shapeCast S10x49 (eltsHit m c) shapeCasts_S10x1x7x7_S10x49 := by
  show StableHlo.after hostOps0 (fun b => m (c, b)) (Proc.devRef .tc main_v0) = _
  after_results
  rfl

/-- The 10 × 49 matrix of the miss elements, as the region finds it. -/
theorem V_main_v1 (c : Dev nD) :
    (V m c main_v1 : S10x49.Idx → EReal) = shapeCast S10x49 (eltsMiss m c) shapeCasts_S10x1x7x7_S10x49 := by
  show StableHlo.after hostOps0 (fun b => m (c, b)) (Proc.devRef .tc main_v1) = _
  after_results
  rfl

/-- The second window's one block is the re-laid hit elements. -/
theorem iblk1_eq (c : Dev nD) : iblk m c 1 pt = shapeCast S10x49 (eltsHit m c) shapeCasts_S10x1x7x7_S10x49 := by
  unfold iblk
  have hz' : (fun a => win0_1.index pt a * main_v0.ty.shape.size a) = fun _ => 0 := funext fun a => by fin_cases a <;> decide
  exact (Memref.read_access_unit_zero (Elt Ideal) main_v0 hz' (fun a => by rw [congrFun hz' a]; simp) (V m c main_v0)).trans
    (V_main_v0 m c)

/-- The third window's one block is the re-laid miss elements. -/
theorem iblk2_eq (c : Dev nD) : iblk m c 2 pt = shapeCast S10x49 (eltsMiss m c) shapeCasts_S10x1x7x7_S10x49 := by
  unfold iblk
  have hz' : (fun a => win0_2.index pt a * main_v1.ty.shape.size a) = fun _ => 0 := funext fun a => by fin_cases a <;> decide
  exact (Memref.read_access_unit_zero (Elt Ideal) main_v1 hz' (fun a => by rw [congrFun hz' a]; simp) (V m c main_v1)).trans
    (V_main_v1 m c)

/-- Entry `7u + v` of row `o` of the re-laid elements is tap `(u, v)` of element `o`. -/
theorem relaid_apply (k : S10x1x7x7.Idx → EReal) (h : S10x1x7x7.ShapeCasts S10x49) (o : Fin 10) (u v : Fin 7) :
    shapeCast S10x49 k h (ix2 o (⟨7 * u.val + v.val, by omega⟩ : Fin 49)) = k (tap o u v) :=
  shapeCast_apply k h _ _ (by
    rw [Shape.rowMajor_val_four, Shape.rowMajor_val_two]
    show ((o.val * 1 + 0) * 7 + u.val) * 7 + v.val = o.val * 49 + (7 * u.val + v.val)
    omega)

/-- So the kernel's sum over positions and taps, on the re-laid elements, is the response's total. -/
theorem ksum_eq_total (g : EReal → EReal) (x : S1x1x306x306.Idx → EReal) (k : S10x1x7x7.Idx → EReal)
    (h : S10x1x7x7.ShapeCasts S10x49) (o : Fin 10) :
    (∑ r : Fin 300, ∑ c : Fin 300, ∑ v : Fin 7, ∑ u : Fin 7, kterm g x (shapeCast S10x49 k h) o u v r c) = total g x k o := by
  unfold total
  refine Finset.sum_congr rfl fun r _ => Finset.sum_congr rfl fun c _ => Finset.sum_congr rfl fun v _ =>
    Finset.sum_congr rfl fun u _ => ?_
  unfold kterm term
  rw [relaid_apply]

/-! ## What the body leaves, and the arrays after the region -/

/-- The row the body leaves in the first output's staging buffer is the hit response. -/
theorem hitRow_eq (c : Dev nD) :
    ((outsAt0 m c pt).1 : S1x10.Idx → EReal) = response (fun t => min t 0) (img m c) (eltsHit m c) := by
  funext j
  obtain ⟨z, o, rfl⟩ : ∃ (z : Fin 1) (o : Fin 10), j = ix2 z o := ⟨j 0, j 1, eq_ix2 j⟩
  obtain rfl : z = 0 := Subsingleton.elim _ _
  exact (hit_apply c (grid0.coords pt) (ms0_0 pt) (hs0_0 pt) (ms0_1 pt) (hs0_1 pt) (ms0_2 pt) (hs0_2 pt) (ms0_3 pt) (hs0_3 pt) (ms0_4 pt) (hs0_4 pt) scM0_0 (Memref.isWhole_whole _) scM0_1 (Memref.isWhole_whole _) (iblk m c 0 pt) (iblk m c 1 pt) (iblk m c 2 pt) o).trans (by
    rw [iblk0_eq, iblk1_eq]
    exact ksum_eq_total _ _ _ _ o)

/-- The row the body leaves in the second output's staging buffer is the miss response. -/
theorem missRow_eq (c : Dev nD) :
    ((outsAt0 m c pt).2 : S1x10.Idx → EReal) = response (fun t => max t 0) (img m c) (eltsMiss m c) := by
  funext j
  obtain ⟨z, o, rfl⟩ : ∃ (z : Fin 1) (o : Fin 10), j = ix2 z o := ⟨j 0, j 1, eq_ix2 j⟩
  obtain rfl : z = 0 := Subsingleton.elim _ _
  exact (miss_apply c (grid0.coords pt) (ms0_0 pt) (hs0_0 pt) (ms0_1 pt) (hs0_1 pt) (ms0_2 pt) (hs0_2 pt) (ms0_3 pt) (hs0_3 pt) (ms0_4 pt) (hs0_4 pt) scM0_0 (Memref.isWhole_whole _) scM0_1 (Memref.isWhole_whole _) (iblk m c 0 pt) (iblk m c 1 pt) (iblk m c 2 pt) o).trans (by
    rw [iblk0_eq, iblk2_eq]
    exact ksum_eq_total _ _ _ _ o)

/-- What the one write-back of the first output writes: the row, read through the block that is the whole array. -/
theorem flushed3_eq (c : Dev nD) (t : Fin cfg0.N) (hf : (cfg0.win 3).flush t = true) :
    (dats m 0 c).flushed 3 t = ((cfg0.win 3).blk t).view.read (Elt Ideal) ((outsAt0 m c pt).1) := by
  obtain rfl := eq_pt t
  show (cfg0.win 3).cut (grid0.coords pt) ((dats m 0 c).after 3 pt) = _
  rw [after0_3]
  have hz' : (fun a => win0_3.index pt a * main_v2_0.ty.shape.size a) = fun _ => 0 := funext fun a => by fin_cases a <;> decide
  exact (Memref.read_access_unit_zero (Elt Ideal) main_v2_0 hz' (fun a => by rw [congrFun hz' a]; simp) ((outsAt0 m c pt).1)).symm

/-- The same for the second output. -/
theorem flushed4_eq (c : Dev nD) (t : Fin cfg0.N) (hf : (cfg0.win 4).flush t = true) :
    (dats m 0 c).flushed 4 t = ((cfg0.win 4).blk t).view.read (Elt Ideal) ((outsAt0 m c pt).2) := by
  obtain rfl := eq_pt t
  show (cfg0.win 4).cut (grid0.coords pt) ((dats m 0 c).after 4 pt) = _
  rw [after0_4]
  have hz' : (fun a => win0_4.index pt a * main_v2_1.ty.shape.size a) = fun _ => 0 := funext fun a => by fin_cases a <;> decide
  exact (Memref.read_access_unit_zero (Elt Ideal) main_v2_1 hz' (fun a => by rw [congrFun hz' a]; simp) ((outsAt0 m c pt).2)).symm

/-- The first output array after the region: the hit response (its one block covers it). -/
theorem final3 (c : Dev nD) : (dats m 0 c).arrAt 3 cfg0.N = response (fun t => min t 0) (img m c) (eltsHit m c) :=
  ((dats m 0 c).arrAt_eq_of_cover 3 ((outsAt0 m c pt).1) (flushed3_eq m c) fun i =>
    ⟨pt, flush0_3 pt, by
      show i ∈ ((View.whole main_v2_0).slice (win0_3.rect pt)).set
      rw [View.set_slice_whole, Rect.mem_set_unit]
      intro a
      have h0 : (i 0 : Nat) < 1 := (i 0).isLt
      have h1 : (i 1 : Nat) < 10 := (i 1).isLt
      match a with
      | ⟨0, _⟩ => show win0_3.index pt 0 * win0_3.size 0 ≤ (i 0 : Nat) ∧ (i 0 : Nat) < win0_3.index pt 0 * win0_3.size 0 + win0_3.xsize (grid0.coords pt) 0
                  rw [show win0_3.index pt 0 * win0_3.size 0 = 0 from by decide +kernel, show win0_3.xsize (grid0.coords pt) 0 = 1 from by decide +kernel]; omega
      | ⟨1, _⟩ => show win0_3.index pt 1 * win0_3.size 1 ≤ (i 1 : Nat) ∧ (i 1 : Nat) < win0_3.index pt 1 * win0_3.size 1 + win0_3.xsize (grid0.coords pt) 1
                  rw [show win0_3.index pt 1 * win0_3.size 1 = 0 from by decide +kernel, show win0_3.xsize (grid0.coords pt) 1 = 10 from by decide +kernel]; omega⟩).trans
    (hitRow_eq m c)

/-- The second output array after the region: the miss response. -/
theorem final4 (c : Dev nD) : (dats m 0 c).arrAt 4 cfg0.N = response (fun t => max t 0) (img m c) (eltsMiss m c) :=
  ((dats m 0 c).arrAt_eq_of_cover 4 ((outsAt0 m c pt).2) (flushed4_eq m c) fun i =>
    ⟨pt, flush0_4 pt, by
      show i ∈ ((View.whole main_v2_1).slice (win0_4.rect pt)).set
      rw [View.set_slice_whole, Rect.mem_set_unit]
      intro a
      have h0 : (i 0 : Nat) < 1 := (i 0).isLt
      have h1 : (i 1 : Nat) < 10 := (i 1).isLt
      match a with
      | ⟨0, _⟩ => show win0_4.index pt 0 * win0_4.size 0 ≤ (i 0 : Nat) ∧ (i 0 : Nat) < win0_4.index pt 0 * win0_4.size 0 + win0_4.xsize (grid0.coords pt) 0
                  rw [show win0_4.index pt 0 * win0_4.size 0 = 0 from by decide +kernel, show win0_4.xsize (grid0.coords pt) 0 = 1 from by decide +kernel]; omega
      | ⟨1, _⟩ => show win0_4.index pt 1 * win0_4.size 1 ≤ (i 1 : Nat) ∧ (i 1 : Nat) < win0_4.index pt 1 * win0_4.size 1 + win0_4.xsize (grid0.coords pt) 1
                  rw [show win0_4.index pt 1 * win0_4.size 1 = 0 from by decide +kernel, show win0_4.xsize (grid0.coords pt) 1 = 10 from by decide +kernel]; omega⟩).trans
    (missRow_eq m c)

end Cert.Morph.Ker

end
-- ==== Proof.KernelTail.lean ====
/-
  The kernel's three results after the operations that follow the region, and its run.

  After the region the two output arrays hold the two responses; the lines after it take their difference, spread each
  row over the 300 × 300 maps and pool the difference's map: the feature maps of the two responses.
-/
import proofs.«178146_j65755949302191_2_alg».proof.Proof.KernelRun

set_option maxRecDepth 16384

noncomputable section

namespace Cert.Morph.Ker

open Cert.KernelIdeal Cert.KernelIdeal.Gen Idealize.ShloMosaic Idealize.ShloMosaic.TcCoe Idealize.ShloMosaic.Tactic
open Idealize.ShloMosaic.ValueIdx Idealize.SL Idealize.SL.Sem Cert.Morph Idealize.ShloMosaic.StableHlo

variable (m : (ℓ : Loc nD τ sig) → Buf (Elt Ideal) ℓ) (ρ : Dev nD → PrngReg)

/-- The hit response of the launch contents. -/
abbrev hitR (c : Dev nD) : FVec Ideal ⟨2, ![1, 10]⟩ .f32 := response (fun t => min t 0) (img m c) (eltsHit m c)
/-- The miss response of the launch contents. -/
abbrev missR (c : Dev nD) : FVec Ideal ⟨2, ![1, 10]⟩ .f32 := response (fun t => max t 0) (img m c) (eltsMiss m c)

/-- The first output array as the lines after the region find it. -/
theorem arr3 (c : Dev nD) :
    Pipeline.withArrays (cfgs 0).spec c (V0 m c) (fun w => (dats m 0 c).arrAt w (cfgs 0).N) (Proc.devRef .tc main_v2_0) = hitR m c :=
  (Pipeline.withArrays_arr spec0 launch0.win.arr_inj c _ _ 3).trans (final3 m c)

/-- The second output array as the lines after the region find it. -/
theorem arr4 (c : Dev nD) :
    Pipeline.withArrays (cfgs 0).spec c (V0 m c) (fun w => (dats m 0 c).arrAt w (cfgs 0).N) (Proc.devRef .tc main_v2_1) = missR m c :=
  (Pipeline.withArrays_arr spec0 launch0.win.arr_inj c _ _ 4).trans (final4 m c)

/-- The pooled map after the lines that follow the region. -/
theorem tail_pooled (c : Dev nD) :
    Pipeline.afterTail₀ cfgs (dats m) 0 (V0 m) [hostOps1] c main_v15 = pooledMap (hitR m c) (missR m c) := by
  unfold Pipeline.afterTail₀
  show StableHlo.after hostOps1 _ (Proc.devRef .tc main_v15) = _
  after_results
  rw [arr3, arr4]
  rfl

/-- The hit map after the lines that follow the region. -/
theorem tail_hit (c : Dev nD) :
    Pipeline.afterTail₀ cfgs (dats m) 0 (V0 m) [hostOps1] c main_v9 = spreadMap (hitR m c) := by
  unfold Pipeline.afterTail₀
  show StableHlo.after hostOps1 _ (Proc.devRef .tc main_v9) = _
  after_results
  rw [arr3]
  rfl

/-- The miss map after the lines that follow the region. -/
theorem tail_miss (c : Dev nD) :
    Pipeline.afterTail₀ cfgs (dats m) 0 (V0 m) [hostOps1] c main_v12 = spreadMap (missR m c) := by
  unfold Pipeline.afterTail₀
  show StableHlo.after hostOps1 _ (Proc.devRef .tc main_v12) = _
  after_results
  rw [arr4]
  rfl

/-- The run, read: every weakly fair execution ends with the three results at the feature maps of the two responses of the
    launch contents, and the arguments unchanged. -/
theorem run : θ_run defs (onTc (τ := τ) (main (F := Ideal))) ⟨m, fun _ => 0, ρ⟩ fun r => ∀ c : Dev nD,
      r.2.mem ((c.tc : Thread nD τ).loc main_v15) = pooledMap (hitR m c) (missR m c)
      ∧ r.2.mem ((c.tc : Thread nD τ).loc main_v9) = spreadMap (hitR m c)
      ∧ r.2.mem ((c.tc : Thread nD τ).loc main_v12) = spreadMap (missR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v15 (Pipeline.mem_restRefs_of main_v15 (by decide) (by decide))).trans (tail_pooled m c),
     ((h c).2 main_v9 (Pipeline.mem_restRefs_of main_v9 (by decide) (by decide))).trans (tail_hit m c),
     ((h c).2 main_v12 (Pipeline.mem_restRefs_of main_v12 (by decide) (by decide))).trans (tail_miss m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.Morph.Ker

end
-- ==== Proof.RefPatches.lean ====
/-
  The reference's array of sliding windows, read at an index.

  The reference builds the windows of the image by slicing: for each tap `(u, v)` the 300 × 300 plane of the image shifted
  down by `u` and right by `v`; the seven planes of one `u` are joined along a new axis (the tap's column), and the seven
  joined rows along another (the tap's row). So the array of windows holds, at (·, ·, u, v, r, c), the pixel
  `(u + r, v + c)`: a joined array read at an index is the piece its coordinate on the joined axis names, read at the
  remaining coordinates.
-/
import proofs.«178146_j65755949302191_2_alg».proof.Proof.RefRead
import proofs.«178146_j65755949302191_2_alg».proof.Proof.MorphSpec

noncomputable section

namespace Cert.Morph.Ref

open Cert.ReferenceIdeal Cert.ReferenceIdeal.Gen Cert.ReferenceIdeal.ReadP
open Idealize.ShloMosaic Idealize.ShloMosaic.ValueIdx Cert.Morph

variable {α : Type}

/-- The pixel `(u + r, v + c)` for offsets given as naturals. -/
abbrev shifted (u v : Nat) (hu : u + 300 ≤ 306) (hv : v + 300 ≤ 306) (r c : Fin 300) : S1x1x306x306.Idx :=
  ix4 (0 : Fin 1) (0 : Fin 1) (⟨u + r.val, by omega⟩ : Fin 306) (⟨v + c.val, by omega⟩ : Fin 306)

/-- One shifted plane with a unit axis put in third place, read at (·, ·, ·, r, c): the pixel `(u + r, v + c)`. -/
theorem plane_apply (u v : Nat) (hu : u + 300 ≤ 306) (hv : v + 300 ≤ 306) (x : S1x1x306x306.Idx → α)
    (hs : S1x1x306x306.Slices ![0, 0, u, v] S1x1x300x300)
    (hb : S1x1x300x300.BroadcastsInDim S1x1x1x300x300 ![0, 1, 3, 4]) (i : S1x1x1x300x300.Idx) :
    broadcastInDim S1x1x1x300x300 ![0, 1, 3, 4] hb (extractStridedSlice S1x1x300x300 ![0, 0, u, v] x hs) i
      = x (shifted u v hu hv (⟨(i 3).val, (i 3).isLt⟩ : Fin 300) (⟨(i 4).val, (i 4).isLt⟩ : Fin 300)) := by
  refine (broadcastInDim_apply _ hb _ i
    (ix4 (0 : Fin 1) (0 : Fin 1) (⟨(i 3).val, (i 3).isLt⟩ : Fin 300) (⟨(i 4).val, (i 4).isLt⟩ : Fin 300)) (fun a => match a with
      | ⟨0, _⟩ => by show 0 = if (1 : Nat) = 1 then 0 else (i 0).val; rw [if_pos rfl]
      | ⟨1, _⟩ => by show 0 = if (1 : Nat) = 1 then 0 else (i 1).val; rw [if_pos rfl]
      | ⟨2, _⟩ => by show (i 3).val = if (300 : Nat) = 1 then 0 else (i 3).val; rw [if_neg (by decide)]
      | ⟨3, _⟩ => by show (i 4).val = if (300 : Nat) = 1 then 0 else (i 4).val; rw [if_neg (by decide)])).trans ?_
  exact extractStridedSlice_apply _ x hs _ _ (fun a => match a with
      | ⟨0, _⟩ => by show (0 : Nat) = 0 + 0; rfl
      | ⟨1, _⟩ => by show (0 : Nat) = 0 + 0; rfl
      | ⟨2, _⟩ => by show u + (i 3).val = u + (i 3).val; rfl
      | ⟨3, _⟩ => by show v + (i 4).val = v + (i 4).val; rfl)

/-- Seven arrays with a unit third axis joined along it, read at an index whose third coordinate is `n`: piece `n`, at the
    same last two coordinates. -/
theorem joined_planes_apply (xs : List ((s : Shape) × (s.Idx → α)))
    (hc : Shape.Concatenates (xs.map (·.1)) S1x1x7x300x300 2) (j : S1x1x7x300x300.Idx)
    (n : Nat) (hn : n < xs.length) (y : S1x1x1x300x300.Idx → α) (hx : xs[n] = ⟨S1x1x1x300x300, y⟩)
    (hpre : (((xs.take n).map (·.1)).map fun s => if h : s.rank = S1x1x7x300x300.rank then s.size ((2 : Fin S1x1x7x300x300.rank).cast h.symm) else 0).sum = n)
    (hj : (j 2).val = n) :
    concatenate S1x1x7x300x300 2 xs hc j
      = y (ix5 (0 : Fin 1) (0 : Fin 1) (0 : Fin 1) (⟨(j 3).val, (j 3).isLt⟩ : Fin 300) (⟨(j 4).val, (j 4).isLt⟩ : Fin 300)) := by
  refine concatenate_apply_piece (2 : Fin S1x1x7x300x300.rank) xs hc j n hn S1x1x1x300x300 y hx rfl n hpre _ (fun b hb => ?_) ?_
  · match b with
    | ⟨0, _⟩ => show (0 : Nat) = (j 0).val; have : (j 0).val < 1 := (j 0).isLt; omega
    | ⟨1, _⟩ => show (0 : Nat) = (j 1).val; have : (j 1).val < 1 := (j 1).isLt; omega
    | ⟨2, _⟩ => exact absurd rfl hb
    | ⟨3, _⟩ => rfl
    | ⟨4, _⟩ => rfl
  · show n + 0 = (j 2).val
    omega

/-- A row of the windows — the seven planes shifted down by `u` and right by 0 … 6, joined — read at (·, ·, v, r, c): the
    pixel `(u + r, v + c)`. -/
theorem row_apply (u : Nat) (hu : u + 300 ≤ 306) (x : S1x1x306x306.Idx → α)
    (h0 : S1x1x306x306.Slices ![0, 0, u, 0] S1x1x300x300) (h1 : S1x1x306x306.Slices ![0, 0, u, 1] S1x1x300x300)
    (h2 : S1x1x306x306.Slices ![0, 0, u, 2] S1x1x300x300) (h3 : S1x1x306x306.Slices ![0, 0, u, 3] S1x1x300x300)
    (h4 : S1x1x306x306.Slices ![0, 0, u, 4] S1x1x300x300) (h5 : S1x1x306x306.Slices ![0, 0, u, 5] S1x1x300x300)
    (h6 : S1x1x306x306.Slices ![0, 0, u, 6] S1x1x300x300)
    (hb : S1x1x300x300.BroadcastsInDim S1x1x1x300x300 ![0, 1, 3, 4])
    (hc : Shape.Concatenates (([⟨S1x1x1x300x300, broadcastInDim S1x1x1x300x300 ![0, 1, 3, 4] hb (extractStridedSlice S1x1x300x300 ![0, 0, u, 0] x h0)⟩,
        ⟨S1x1x1x300x300, broadcastInDim S1x1x1x300x300 ![0, 1, 3, 4] hb (extractStridedSlice S1x1x300x300 ![0, 0, u, 1] x h1)⟩,
        ⟨S1x1x1x300x300, broadcastInDim S1x1x1x300x300 ![0, 1, 3, 4] hb (extractStridedSlice S1x1x300x300 ![0, 0, u, 2] x h2)⟩,
        ⟨S1x1x1x300x300, broadcastInDim S1x1x1x300x300 ![0, 1, 3, 4] hb (extractStridedSlice S1x1x300x300 ![0, 0, u, 3] x h3)⟩,
        ⟨S1x1x1x300x300, broadcastInDim S1x1x1x300x300 ![0, 1, 3, 4] hb (extractStridedSlice S1x1x300x300 ![0, 0, u, 4] x h4)⟩,
        ⟨S1x1x1x300x300, broadcastInDim S1x1x1x300x300 ![0, 1, 3, 4] hb (extractStridedSlice S1x1x300x300 ![0, 0, u, 5] x h5)⟩,
        ⟨S1x1x1x300x300, broadcastInDim S1x1x1x300x300 ![0, 1, 3, 4] hb (extractStridedSlice S1x1x300x300 ![0, 0, u, 6] x h6)⟩] :
          List ((s : Shape) × (s.Idx → α))).map (·.1)) S1x1x7x300x300 2)
    (j : S1x1x7x300x300.Idx) :
    concatenate S1x1x7x300x300 2 _ hc j
      = x (shifted u (j 2).val hu (by have : (j 2).val < 7 := (j 2).isLt; omega) (⟨(j 3).val, (j 3).isLt⟩ : Fin 300) (⟨(j 4).val, (j 4).isLt⟩ : Fin 300)) := by
  have hj2 : (j 2).val < 7 := (j 2).isLt
  have fin : ∀ (v : Nat) (hv : v + 300 ≤ 306), (j 2).val = v →
      x (shifted u v hu hv (⟨(j 3).val, (j 3).isLt⟩ : Fin 300) (⟨(j 4).val, (j 4).isLt⟩ : Fin 300))
        = x (shifted u (j 2).val hu (by omega) (⟨(j 3).val, (j 3).isLt⟩ : Fin 300) (⟨(j 4).val, (j 4).isLt⟩ : Fin 300)) :=
    fun v hv e => by subst e; rfl
  obtain e | e | e | e | e | e | e : (j 2).val = 0 ∨ (j 2).val = 1 ∨ (j 2).val = 2 ∨ (j 2).val = 3 ∨ (j 2).val = 4
      ∨ (j 2).val = 5 ∨ (j 2).val = 6 := by omega
  · exact ((joined_planes_apply _ hc j 0 (by show 0 < 7; omega) _ rfl rfl e).trans (plane_apply u 0 hu (by omega) x h0 hb _)).trans (fin 0 _ e)
  · exact ((joined_planes_apply _ hc j 1 (by show 1 < 7; omega) _ rfl rfl e).trans (plane_apply u 1 hu (by omega) x h1 hb _)).trans (fin 1 _ e)
  · exact ((joined_planes_apply _ hc j 2 (by show 2 < 7; omega) _ rfl rfl e).trans (plane_apply u 2 hu (by omega) x h2 hb _)).trans (fin 2 _ e)
  · exact ((joined_planes_apply _ hc j 3 (by show 3 < 7; omega) _ rfl rfl e).trans (plane_apply u 3 hu (by omega) x h3 hb _)).trans (fin 3 _ e)
  · exact ((joined_planes_apply _ hc j 4 (by show 4 < 7; omega) _ rfl rfl e).trans (plane_apply u 4 hu (by omega) x h4 hb _)).trans (fin 4 _ e)
  · exact ((joined_planes_apply _ hc j 5 (by show 5 < 7; omega) _ rfl rfl e).trans (plane_apply u 5 hu (by omega) x h5 hb _)).trans (fin 5 _ e)
  · exact ((joined_planes_apply _ hc j 6 (by show 6 < 7; omega) _ rfl rfl e).trans (plane_apply u 6 hu (by omega) x h6 hb _)).trans (fin 6 _ e)

end Cert.Morph.Ref

end
-- ==== Proof.MorphFold.lean ====
/-
  A sum over the five trailing axes of a [1, 10, 1, 7, 7, 300, 300] array, read at a channel.

  The array holds, at (0, o, 0, u, v, r, c), the term of channel `o`, tap `(u, v)` and window position `(r, c)`. Summing it
  over every axis but the first two leaves a [1, 10] array whose entry `(0, o)` adds up exactly the entries whose second
  coordinate is `o`: the two unit coordinates can only be zero, so these entries are in bijection with the quadruples
  (r, c, v, u), and the sum over them is a sum over that product.
-/
import Idealize.ShloMosaic.PureOps.Ideal.Laws
import Idealize.ShloMosaic.Lib.ValueIdx
import proofs.«178146_j65755949302191_2_alg».proof.Proof.MorphSpec

noncomputable section

namespace Cert.Morph

open Idealize.ShloMosaic Idealize.ShloMosaic.ValueIdx

/-- The shape of the array of all terms. -/
abbrev SAll : Shape := ⟨7, ![1, 10, 1, 7, 7, 300, 300]⟩

/-- An index of the array of all terms from its seven coordinates. -/
abbrev ix7 (a : Fin 1) (o : Fin 10) (b : Fin 1) (u v : Fin 7) (r c : Fin 300) : SAll.Idx :=
  fun d => match d with
    | ⟨0, _⟩ => a | ⟨1, _⟩ => o | ⟨2, _⟩ => b | ⟨3, _⟩ => u | ⟨4, _⟩ => v | ⟨5, _⟩ => r | ⟨6, _⟩ => c

/-- The index of the term of channel `o` at the quadruple (position, tap) `p = (r, c, v, u)`. -/
abbrev atQuad (o : Fin 10) (p : Fin 300 × Fin 300 × Fin 7 × Fin 7) : SAll.Idx :=
  ix7 0 o 0 p.2.2.2 p.2.2.1 p.1 p.2.1

/-- The quadruple of an index: its last four coordinates. -/
abbrev quadOf (i : SAll.Idx) : Fin 300 × Fin 300 × Fin 7 × Fin 7 :=
  ((i 5 : Fin 300), (i 6 : Fin 300), (i 4 : Fin 7), (i 3 : Fin 7))

/-- An index that drops to `j` is the index of channel `j 1` at its own quadruple. -/
theorem eq_atQuad_of_drop (h : SAll.ReducesTo [2, 3, 4, 5, 6] SOut) (i : SAll.Idx) (j : SOut.Idx) (hd : h.drop i = j) :
    atQuad (j 1) (quadOf i) = i := by
  subst hd
  funext a
  apply Fin.ext
  match a with
  | ⟨0, _⟩ => show (0 : Nat) = (i 0).val; have : (i 0).val < 1 := (i 0).isLt; omega
  | ⟨1, _⟩ => rfl
  | ⟨2, _⟩ => show (0 : Nat) = (i 2).val; have : (i 2).val < 1 := (i 2).isLt; omega
  | ⟨3, _⟩ => rfl
  | ⟨4, _⟩ => rfl
  | ⟨5, _⟩ => rfl
  | ⟨6, _⟩ => rfl

/-- The index of channel `j 1` at any quadruple drops to `j`. -/
theorem drop_atQuad (h : SAll.ReducesTo [2, 3, 4, 5, 6] SOut) (j : SOut.Idx) (p : Fin 300 × Fin 300 × Fin 7 × Fin 7) :
    h.drop (atQuad (j 1) p) = j := by
  funext b
  apply Fin.ext
  match b with
  | ⟨0, _⟩ => show (0 : Nat) = (j 0).val; have : (j 0).val < 1 := (j 0).isLt; omega
  | ⟨1, _⟩ => rfl

/-- The host's sum over the five trailing axes, at `j`: the initial value plus the sum over the quadruples of the entries of
    channel `j 1`. -/
theorem hostSum_apply (h : SAll.ReducesTo [2, 3, 4, 5, 6] SOut) (f : SAll.Idx → EReal) (init : EReal) (j : SOut.Idx) :
    Ideal.hostReduceAdd h f init j = init + ∑ p : Fin 300 × Fin 300 × Fin 7 × Fin 7, f (atQuad (j 1) p) := by
  unfold Ideal.hostReduceAdd
  congr 1
  refine Finset.sum_nbij' quadOf (atQuad (j 1)) (fun _ _ => Finset.mem_univ _)
    (fun p _ => Finset.mem_filter.2 ⟨Finset.mem_univ _, drop_atQuad h j p⟩)
    (fun i hi => eq_atQuad_of_drop h i j (Finset.mem_filter.1 hi).2) (fun _ _ => rfl)
    (fun i hi => congrArg f (eq_atQuad_of_drop h i j (Finset.mem_filter.1 hi).2).symm)

/-- So if the array holds the terms, the host's sum started at zero is the response. -/
theorem hostSum_eq_response (h : SAll.ReducesTo [2, 3, 4, 5, 6] SOut) (g : EReal → EReal) (x : SImg.Idx → EReal) (k : SElt.Idx → EReal)
    (f : SAll.Idx → EReal) (hf : ∀ i : SAll.Idx, f i = term g x k (i 1) (i 3) (i 4) (i 5) (i 6)) :
    Ideal.hostReduceAdd h f 0 = response g x k := by
  funext j
  rw [hostSum_apply, zero_add]
  exact (Finset.sum_congr rfl fun p _ => hf _).trans (total_eq_sum_prod g x k (j 1)).symm

end Cert.Morph

end
-- ==== Proof.RefSums.lean ====
/-
  The reference's two sums are the responses.

  The windows array holds the pixel `(u + r, v + c)` at (·, ·, u, v, r, c) (each spreading step reads its operand at the same
  coordinates, a unit axis at zero — which the operations' definitions compute); spread over the ten channels, with the tap
  `k o (u, v)` taken away and clipped at zero from above or from below, it is the array of all terms; summed over every
  axis but the channel's it is the response.
-/
import proofs.«178146_j65755949302191_2_alg».proof.Proof.RefPatches
import proofs.«178146_j65755949302191_2_alg».proof.Proof.MorphFold
import proofs.«178146_j65755949302191_2_alg».proof.Proof.MorphTail
import Idealize.ShloMosaic.Lib.IdealHost

noncomputable section

namespace Cert.Morph.Ref

open Cert.ReferenceIdeal Cert.ReferenceIdeal.Gen Cert.ReferenceIdeal.ReadP
open Idealize.ShloMosaic Idealize.ShloMosaic.ValueIdx Cert.Morph

variable {α : Type}

/-- An index of a [1, 1, 1, 7, 300, 300] array from its coordinates. -/
abbrev ix6 (a b c : Fin 1) (v : Fin 7) (r s : Fin 300) : S1x1x1x7x300x300.Idx :=
  fun d => match d with
    | ⟨0, _⟩ => a | ⟨1, _⟩ => b | ⟨2, _⟩ => c | ⟨3, _⟩ => v | ⟨4, _⟩ => r | ⟨5, _⟩ => s

/-- An index of a [1, 1, 7, 7, 300, 300] array from its coordinates. -/
abbrev ix6w (a b : Fin 1) (u v : Fin 7) (r s : Fin 300) : S1x1x7x7x300x300.Idx :=
  fun d => match d with
    | ⟨0, _⟩ => a | ⟨1, _⟩ => b | ⟨2, _⟩ => u | ⟨3, _⟩ => v | ⟨4, _⟩ => r | ⟨5, _⟩ => s

/-- A row of the windows given a unit third axis reads, at (·, ·, ·, v, r, c), the row at (·, ·, v, r, c). -/
theorem spreadRow_apply (y : S1x1x7x300x300.Idx → α) (h : S1x1x7x300x300.BroadcastsInDim S1x1x1x7x300x300 ![0, 1, 3, 4, 5])
    (a b c : Fin 1) (v : Fin 7) (r s : Fin 300) :
    broadcastInDim S1x1x1x7x300x300 ![0, 1, 3, 4, 5] h y (ix6 a b c v r s) = y (ix5 (0 : Fin 1) (0 : Fin 1) v r s) :=
  broadcastInDim_apply _ h y _ _ (fun ax => match ax with
    | ⟨0, _⟩ => by show (0 : Nat) = if (1 : Nat) = 1 then 0 else _; rw [if_pos rfl]
    | ⟨1, _⟩ => by show (0 : Nat) = if (1 : Nat) = 1 then 0 else _; rw [if_pos rfl]
    | ⟨2, _⟩ => by show v.val = if (7 : Nat) = 1 then 0 else v.val; rw [if_neg (by decide)]
    | ⟨3, _⟩ => by show r.val = if (300 : Nat) = 1 then 0 else r.val; rw [if_neg (by decide)]
    | ⟨4, _⟩ => by show s.val = if (300 : Nat) = 1 then 0 else s.val; rw [if_neg (by decide)])

/-- The windows given a unit third axis and spread over the ten channels read, at an index `i`, the windows at
    (·, ·, i₃, i₄, i₅, i₆). -/
theorem spreadWin_apply (y : S1x1x7x7x300x300.Idx → α)
    (h' : S1x1x7x7x300x300.BroadcastsInDim S1x1x1x7x7x300x300 ![0, 2, 3, 4, 5, 6])
    (h : S1x1x1x7x7x300x300.BroadcastsInDim S1x10x1x7x7x300x300 ![0, 1, 2, 3, 4, 5, 6]) (i : S1x10x1x7x7x300x300.Idx) :
    broadcastInDim S1x10x1x7x7x300x300 ![0, 1, 2, 3, 4, 5, 6] h (broadcastInDim S1x1x1x7x7x300x300 ![0, 2, 3, 4, 5, 6] h' y) i
      = y (ix6w 0 0 (⟨(i 3).val, (i 3).isLt⟩ : Fin 7) (⟨(i 4).val, (i 4).isLt⟩ : Fin 7) (⟨(i 5).val, (i 5).isLt⟩ : Fin 300)
          (⟨(i 6).val, (i 6).isLt⟩ : Fin 300)) := by
  refine (broadcastInDim_apply _ h _ i (fun d => match d with
      | ⟨0, _⟩ => (0 : Fin 1) | ⟨1, _⟩ => (0 : Fin 1) | ⟨2, _⟩ => (0 : Fin 1)
      | ⟨3, _⟩ => (⟨(i 3).val, (i 3).isLt⟩ : Fin 7) | ⟨4, _⟩ => (⟨(i 4).val, (i 4).isLt⟩ : Fin 7)
      | ⟨5, _⟩ => (⟨(i 5).val, (i 5).isLt⟩ : Fin 300) | ⟨6, _⟩ => (⟨(i 6).val, (i 6).isLt⟩ : Fin 300)) (fun ax => match ax with
    | ⟨0, _⟩ => by show (0 : Nat) = if (1 : Nat) = 1 then 0 else _; rw [if_pos rfl]
    | ⟨1, _⟩ => by show (0 : Nat) = if (1 : Nat) = 1 then 0 else _; rw [if_pos rfl]
    | ⟨2, _⟩ => by show (0 : Nat) = if (1 : Nat) = 1 then 0 else _; rw [if_pos rfl]
    | ⟨3, _⟩ => by show (i 3).val = if (7 : Nat) = 1 then 0 else (i 3).val; rw [if_neg (by decide)]
    | ⟨4, _⟩ => by show (i 4).val = if (7 : Nat) = 1 then 0 else (i 4).val; rw [if_neg (by decide)]
    | ⟨5, _⟩ => by show (i 5).val = if (300 : Nat) = 1 then 0 else (i 5).val; rw [if_neg (by decide)]
    | ⟨6, _⟩ => by show (i 6).val = if (300 : Nat) = 1 then 0 else (i 6).val; rw [if_neg (by decide)])).trans ?_
  exact broadcastInDim_apply _ h' y _ _ (fun ax => match ax with
    | ⟨0, _⟩ => by show (0 : Nat) = if (1 : Nat) = 1 then 0 else _; rw [if_pos rfl]
    | ⟨1, _⟩ => by show (0 : Nat) = if (1 : Nat) = 1 then 0 else _; rw [if_pos rfl]
    | ⟨2, _⟩ => by show (i 3).val = if (7 : Nat) = 1 then 0 else (i 3).val; rw [if_neg (by decide)]
    | ⟨3, _⟩ => by show (i 4).val = if (7 : Nat) = 1 then 0 else (i 4).val; rw [if_neg (by decide)]
    | ⟨4, _⟩ => by show (i 5).val = if (300 : Nat) = 1 then 0 else (i 5).val; rw [if_neg (by decide)]
    | ⟨5, _⟩ => by show (i 6).val = if (300 : Nat) = 1 then 0 else (i 6).val; rw [if_neg (by decide)])

/-- The structuring elements given the unit axes of the array of all terms and spread over the window positions read, at an
    index `i`, tap (i₃, i₄) of element i₁. -/
theorem spreadElt_apply (k : S10x1x7x7.Idx → α)
    (h' : S10x1x7x7.BroadcastsInDim S1x10x1x7x7x1x1 ![1, 2, 3, 4])
    (h : S1x10x1x7x7x1x1.BroadcastsInDim S1x10x1x7x7x300x300 ![0, 1, 2, 3, 4, 5, 6]) (i : S1x10x1x7x7x300x300.Idx) :
    broadcastInDim S1x10x1x7x7x300x300 ![0, 1, 2, 3, 4, 5, 6] h (broadcastInDim S1x10x1x7x7x1x1 ![1, 2, 3, 4] h' k) i
      = k (ix4 (⟨(i 1).val, (i 1).isLt⟩ : Fin 10) (0 : Fin 1) (⟨(i 3).val, (i 3).isLt⟩ : Fin 7) (⟨(i 4).val, (i 4).isLt⟩ : Fin 7)) := by
  refine (broadcastInDim_apply _ h _ i (fun d => match d with
      | ⟨0, _⟩ => (0 : Fin 1) | ⟨1, _⟩ => (⟨(i 1).val, (i 1).isLt⟩ : Fin 10) | ⟨2, _⟩ => (0 : Fin 1)
      | ⟨3, _⟩ => (⟨(i 3).val, (i 3).isLt⟩ : Fin 7) | ⟨4, _⟩ => (⟨(i 4).val, (i 4).isLt⟩ : Fin 7)
      | ⟨5, _⟩ => (0 : Fin 1) | ⟨6, _⟩ => (0 : Fin 1)) (fun ax => match ax with
    | ⟨0, _⟩ => by show (0 : Nat) = if (1 : Nat) = 1 then 0 else _; rw [if_pos rfl]
    | ⟨1, _⟩ => by show (i 1).val = if (10 : Nat) = 1 then 0 else (i 1).val; rw [if_neg (by decide)]
    | ⟨2, _⟩ => by show (0 : Nat) = if (1 : Nat) = 1 then 0 else _; rw [if_pos rfl]
    | ⟨3, _⟩ => by show (i 3).val = if (7 : Nat) = 1 then 0 else (i 3).val; rw [if_neg (by decide)]
    | ⟨4, _⟩ => by show (i 4).val = if (7 : Nat) = 1 then 0 else (i 4).val; rw [if_neg (by decide)]
    | ⟨5, _⟩ => by show (0 : Nat) = if (1 : Nat) = 1 then 0 else _; rw [if_pos rfl]
    | ⟨6, _⟩ => by show (0 : Nat) = if (1 : Nat) = 1 then 0 else _; rw [if_pos rfl])).trans ?_
  exact broadcastInDim_apply _ h' k _ _ (fun ax => match ax with
    | ⟨0, _⟩ => by show (i 1).val = if (10 : Nat) = 1 then 0 else (i 1).val; rw [if_neg (by decide)]
    | ⟨1, _⟩ => by show (0 : Nat) = if (1 : Nat) = 1 then 0 else _; rw [if_pos rfl]
    | ⟨2, _⟩ => by show (i 3).val = if (7 : Nat) = 1 then 0 else (i 3).val; rw [if_neg (by decide)]
    | ⟨3, _⟩ => by show (i 4).val = if (7 : Nat) = 1 then 0 else (i 4).val; rw [if_neg (by decide)])

/-- Seven arrays with a unit third axis joined along it into [1, 1, 7, 7, 300, 300], read at an index whose third coordinate is
    `n`: piece `n`, at the same last three coordinates. -/
theorem joined_rows_apply (xs : List ((s : Shape) × (s.Idx → α)))
    (hc : Shape.Concatenates (xs.map (·.1)) S1x1x7x7x300x300 2) (j : S1x1x7x7x300x300.Idx)
    (n : Nat) (hn : n < xs.length) (y : S1x1x1x7x300x300.Idx → α) (hx : xs[n] = ⟨S1x1x1x7x300x300, y⟩)
    (hpre : (((xs.take n).map (·.1)).map fun s => if h : s.rank = S1x1x7x7x300x300.rank then s.size ((2 : Fin S1x1x7x7x300x300.rank).cast h.symm) else 0).sum = n)
    (hj : (j 2).val = n) :
    concatenate S1x1x7x7x300x300 2 xs hc j
      = y (ix6 0 0 0 (⟨(j 3).val, (j 3).isLt⟩ : Fin 7) (⟨(j 4).val, (j 4).isLt⟩ : Fin 300) (⟨(j 5).val, (j 5).isLt⟩ : Fin 300)) := by
  refine concatenate_apply_piece (2 : Fin S1x1x7x7x300x300.rank) xs hc j n hn S1x1x1x7x300x300 y hx rfl n hpre _ (fun b hb => ?_) ?_
  · match b with
    | ⟨0, _⟩ => show (0 : Nat) = (j 0).val; have : (j 0).val < 1 := (j 0).isLt; omega
    | ⟨1, _⟩ => show (0 : Nat) = (j 1).val; have : (j 1).val < 1 := (j 1).isLt; omega
    | ⟨2, _⟩ => exact absurd rfl hb
    | ⟨3, _⟩ => rfl
    | ⟨4, _⟩ => rfl
    | ⟨5, _⟩ => rfl
  · show n + 0 = (j 2).val
    omega

/-- The array of windows, read at (·, ·, u, v, r, c): the pixel `(u + r, v + c)`. -/
theorem windows_apply (x0 : S1x1x306x306.Idx → Ideal .f32) (j : S1x1x7x7x300x300.Idx) :
    val_main_v112 (F := Ideal) x0 j
      = x0 (shifted (j 2).val (j 3).val (by have : (j 2).val < 7 := (j 2).isLt; omega) (by have : (j 3).val < 7 := (j 3).isLt; omega)
          (⟨(j 4).val, (j 4).isLt⟩ : Fin 300) (⟨(j 5).val, (j 5).isLt⟩ : Fin 300)) := by
  have hj2 : (j 2).val < 7 := (j 2).isLt
  have hj3 : (j 3).val < 7 := (j 3).isLt
  have fin : ∀ (u : Nat) (hu : u + 300 ≤ 306), (j 2).val = u →
      x0 (shifted u (j 3).val hu (by omega) (⟨(j 4).val, (j 4).isLt⟩ : Fin 300) (⟨(j 5).val, (j 5).isLt⟩ : Fin 300))
        = x0 (shifted (j 2).val (j 3).val (by omega) (by omega) (⟨(j 4).val, (j 4).isLt⟩ : Fin 300) (⟨(j 5).val, (j 5).isLt⟩ : Fin 300)) :=
    fun u hu e => by subst e; rfl
  unfold val_main_v112
  obtain e | e | e | e | e | e | e : (j 2).val = 0 ∨ (j 2).val = 1 ∨ (j 2).val = 2 ∨ (j 2).val = 3 ∨ (j 2).val = 4
      ∨ (j 2).val = 5 ∨ (j 2).val = 6 := by omega
  · rw [← fin 0 (by omega) e]
    refine (joined_rows_apply _ _ j 0 (by show 0 < 7; omega) _ rfl rfl e).trans ?_
    exact (spreadRow_apply _ _ 0 0 0 _ _ _).trans (row_apply 0 (by omega) x0 slices_S1x1x306x306_S1x1x300x300_0_0_0_0 slices_S1x1x306x306_S1x1x300x300_0_0_0_1 slices_S1x1x306x306_S1x1x300x300_0_0_0_2 slices_S1x1x306x306_S1x1x300x300_0_0_0_3 slices_S1x1x306x306_S1x1x300x300_0_0_0_4 slices_S1x1x306x306_S1x1x300x300_0_0_0_5 slices_S1x1x306x306_S1x1x300x300_0_0_0_6
      bcast_S1x1x300x300_S1x1x1x300x300_0_1_3_4 _ _)
  · rw [← fin 1 (by omega) e]
    refine (joined_rows_apply _ _ j 1 (by show 1 < 7; omega) _ rfl rfl e).trans ?_
    exact (spreadRow_apply _ _ 0 0 0 _ _ _).trans (row_apply 1 (by omega) x0 slices_S1x1x306x306_S1x1x300x300_0_0_1_0 slices_S1x1x306x306_S1x1x300x300_0_0_1_1 slices_S1x1x306x306_S1x1x300x300_0_0_1_2 slices_S1x1x306x306_S1x1x300x300_0_0_1_3 slices_S1x1x306x306_S1x1x300x300_0_0_1_4 slices_S1x1x306x306_S1x1x300x300_0_0_1_5 slices_S1x1x306x306_S1x1x300x300_0_0_1_6
      bcast_S1x1x300x300_S1x1x1x300x300_0_1_3_4 _ _)
  · rw [← fin 2 (by omega) e]
    refine (joined_rows_apply _ _ j 2 (by show 2 < 7; omega) _ rfl rfl e).trans ?_
    exact (spreadRow_apply _ _ 0 0 0 _ _ _).trans (row_apply 2 (by omega) x0 slices_S1x1x306x306_S1x1x300x300_0_0_2_0 slices_S1x1x306x306_S1x1x300x300_0_0_2_1 slices_S1x1x306x306_S1x1x300x300_0_0_2_2 slices_S1x1x306x306_S1x1x300x300_0_0_2_3 slices_S1x1x306x306_S1x1x300x300_0_0_2_4 slices_S1x1x306x306_S1x1x300x300_0_0_2_5 slices_S1x1x306x306_S1x1x300x300_0_0_2_6
      bcast_S1x1x300x300_S1x1x1x300x300_0_1_3_4 _ _)
  · rw [← fin 3 (by omega) e]
    refine (joined_rows_apply _ _ j 3 (by show 3 < 7; omega) _ rfl rfl e).trans ?_
    exact (spreadRow_apply _ _ 0 0 0 _ _ _).trans (row_apply 3 (by omega) x0 slices_S1x1x306x306_S1x1x300x300_0_0_3_0 slices_S1x1x306x306_S1x1x300x300_0_0_3_1 slices_S1x1x306x306_S1x1x300x300_0_0_3_2 slices_S1x1x306x306_S1x1x300x300_0_0_3_3 slices_S1x1x306x306_S1x1x300x300_0_0_3_4 slices_S1x1x306x306_S1x1x300x300_0_0_3_5 slices_S1x1x306x306_S1x1x300x300_0_0_3_6
      bcast_S1x1x300x300_S1x1x1x300x300_0_1_3_4 _ _)
  · rw [← fin 4 (by omega) e]
    refine (joined_rows_apply _ _ j 4 (by show 4 < 7; omega) _ rfl rfl e).trans ?_
    exact (spreadRow_apply _ _ 0 0 0 _ _ _).trans (row_apply 4 (by omega) x0 slices_S1x1x306x306_S1x1x300x300_0_0_4_0 slices_S1x1x306x306_S1x1x300x300_0_0_4_1 slices_S1x1x306x306_S1x1x300x300_0_0_4_2 slices_S1x1x306x306_S1x1x300x300_0_0_4_3 slices_S1x1x306x306_S1x1x300x300_0_0_4_4 slices_S1x1x306x306_S1x1x300x300_0_0_4_5 slices_S1x1x306x306_S1x1x300x300_0_0_4_6
      bcast_S1x1x300x300_S1x1x1x300x300_0_1_3_4 _ _)
  · rw [← fin 5 (by omega) e]
    refine (joined_rows_apply _ _ j 5 (by show 5 < 7; omega) _ rfl rfl e).trans ?_
    exact (spreadRow_apply _ _ 0 0 0 _ _ _).trans (row_apply 5 (by omega) x0 slices_S1x1x306x306_S1x1x300x300_0_0_5_0 slices_S1x1x306x306_S1x1x300x300_0_0_5_1 slices_S1x1x306x306_S1x1x300x300_0_0_5_2 slices_S1x1x306x306_S1x1x300x300_0_0_5_3 slices_S1x1x306x306_S1x1x300x300_0_0_5_4 slices_S1x1x306x306_S1x1x300x300_0_0_5_5 slices_S1x1x306x306_S1x1x300x300_0_0_5_6
      bcast_S1x1x300x300_S1x1x1x300x300_0_1_3_4 _ _)
  · rw [← fin 6 (by omega) e]
    refine (joined_rows_apply _ _ j 6 (by show 6 < 7; omega) _ rfl rfl e).trans ?_
    exact (spreadRow_apply _ _ 0 0 0 _ _ _).trans (row_apply 6 (by omega) x0 slices_S1x1x306x306_S1x1x300x300_0_0_6_0 slices_S1x1x306x306_S1x1x300x300_0_0_6_1 slices_S1x1x306x306_S1x1x300x300_0_0_6_2 slices_S1x1x306x306_S1x1x300x300_0_0_6_3 slices_S1x1x306x306_S1x1x300x300_0_0_6_4 slices_S1x1x306x306_S1x1x300x300_0_0_6_5 slices_S1x1x306x306_S1x1x300x300_0_0_6_6
      bcast_S1x1x300x300_S1x1x1x300x300_0_1_3_4 _ _)

/-- The array of all terms with `min · 0`, read at an index: the term of its channel, tap and window position. -/
theorem hitTerms_apply (x0 : S1x1x306x306.Idx → Ideal .f32) (x1 : S10x1x7x7.Idx → Ideal .f32) (i : S1x10x1x7x7x300x300.Idx) :
    val_main_v120 (F := Ideal) x0 x1 i = term (fun t => min t 0) x0 x1 (i 1) (i 3) (i 4) (i 5) (i 6) := by
  unfold val_main_v120 val_main_v118 val_main_v119 val_main_cst val_main_v116 val_main_v117 val_main_v113 val_main_v114
  show min (broadcastInDim _ _ _ (broadcastInDim _ _ _ (val_main_v112 (F := Ideal) x0)) i - broadcastInDim _ _ _ (broadcastInDim _ _ _ x1) i)
    (Ideal.ofBits .f32 0x00000000#32) = _
  rw [spreadWin_apply, spreadElt_apply, Ideal.ofBits_zero_f32, windows_apply]
  unfold term
  refine congrArg₂ (fun a b => min (a - b) 0) (congrArg x0 ?_) (congrArg x1 ?_)
  · funext a; apply Fin.ext
    match a with
    | ⟨0, _⟩ => rfl
    | ⟨1, _⟩ => rfl
    | ⟨2, _⟩ => rfl
    | ⟨3, _⟩ => rfl
  · funext a; apply Fin.ext
    match a with
    | ⟨0, _⟩ => rfl
    | ⟨1, _⟩ => rfl
    | ⟨2, _⟩ => rfl
    | ⟨3, _⟩ => rfl

/-- The array of all terms with `max · 0`, read at an index. -/
theorem missTerms_apply (x0 : S1x1x306x306.Idx → Ideal .f32) (x2 : S10x1x7x7.Idx → Ideal .f32) (i : S1x10x1x7x7x300x300.Idx) :
    val_main_v126 (F := Ideal) x0 x2 i = term (fun t => max t 0) x0 x2 (i 1) (i 3) (i 4) (i 5) (i 6) := by
  unfold val_main_v126 val_main_v124 val_main_v125 val_main_cst_1 val_main_v122 val_main_v123 val_main_v113 val_main_v115
  show max (broadcastInDim _ _ _ (broadcastInDim _ _ _ (val_main_v112 (F := Ideal) x0)) i - broadcastInDim _ _ _ (broadcastInDim _ _ _ x2) i)
    (Ideal.ofBits .f32 0x00000000#32) = _
  rw [spreadWin_apply, spreadElt_apply, Ideal.ofBits_zero_f32, windows_apply]
  unfold term
  refine congrArg₂ (fun a b => max (a - b) 0) (congrArg x0 ?_) (congrArg x2 ?_)
  · funext a; apply Fin.ext
    match a with
    | ⟨0, _⟩ => rfl
    | ⟨1, _⟩ => rfl
    | ⟨2, _⟩ => rfl
    | ⟨3, _⟩ => rfl
  · funext a; apply Fin.ext
    match a with
    | ⟨0, _⟩ => rfl
    | ⟨1, _⟩ => rfl
    | ⟨2, _⟩ => rfl
    | ⟨3, _⟩ => rfl

/-- The reference's hit sum is the response with `min · 0`. -/
theorem hitSum_eq (x0 : S1x1x306x306.Idx → Ideal .f32) (x1 : S10x1x7x7.Idx → Ideal .f32) :
    val_main_v121 (F := Ideal) x0 x1 = response (fun t => min t 0) x0 x1 := by
  unfold val_main_v121
  funext j
  rw [hostReduceAdd_apply]
  show Ideal.hostReduceAdd _ _ (Ideal.ofBits .f32 0x00000000#32) j = _
  rw [Ideal.ofBits_zero_f32]
  exact congrFun (hostSum_eq_response _ _ x0 x1 _ (hitTerms_apply x0 x1)) j

/-- The reference's miss sum is the response with `max · 0`. -/
theorem missSum_eq (x0 : S1x1x306x306.Idx → Ideal .f32) (x2 : S10x1x7x7.Idx → Ideal .f32) :
    val_main_v127 (F := Ideal) x0 x2 = response (fun t => max t 0) x0 x2 := by
  unfold val_main_v127
  funext j
  rw [hostReduceAdd_apply]
  show Ideal.hostReduceAdd _ _ (Ideal.ofBits .f32 0x00000000#32) j = _
  rw [Ideal.ofBits_zero_f32]
  exact congrFun (hostSum_eq_response _ _ x0 x2 _ (missTerms_apply x0 x2)) j

/-- The reference's three results are the feature maps of its two sums: the same operations, in the same order. -/
theorem pooled_eq (x0 : S1x1x306x306.Idx → Ideal .f32) (x1 x2 : S10x1x7x7.Idx → Ideal .f32) :
    val_main_v140 (F := Ideal) x0 x1 x2 = pooledMap (F := Ideal) (val_main_v121 (F := Ideal) x0 x1) (val_main_v127 (F := Ideal) x0 x2) := rfl
theorem hitMap_eq (x0 : S1x1x306x306.Idx → Ideal .f32) (x1 : S10x1x7x7.Idx → Ideal .f32) :
    val_main_v134 (F := Ideal) x0 x1 = spreadMap (F := Ideal) (val_main_v121 (F := Ideal) x0 x1) := rfl
theorem missMap_eq (x0 : S1x1x306x306.Idx → Ideal .f32) (x2 : S10x1x7x7.Idx → Ideal .f32) :
    val_main_v137 (F := Ideal) x0 x2 = spreadMap (F := Ideal) (val_main_v127 (F := Ideal) x0 x2) := rfl

end Cert.Morph.Ref

end
-- ==== Proof.lean ====
/-
  The certificate of a morphological 7 × 7 layer: a kernel that accumulates, tap by tap, the clipped differences between the
  image's sliding windows and ten structuring elements, against a reference that builds the array of all windows and sums
  it at once.

  At the ideal instance both programs compute, for each channel `o`, the hit response `Σ min (x (u + r, v + c) − k o (u, v), 0)`
  and the miss response (the same with `max` and the other family of elements), the sums taken over the 300 × 300 window
  positions `(r, c)` and the 49 taps `(u, v)`; the kernel adds the taps first, position by position, and the positions
  after, the reference adds all terms in one sum. Addition of extended reals is commutative and associative, so the two
  orders agree, whatever the entries (the precondition is not needed). Both programs then build the same three feature
  maps from the two rows of responses. The kernel's idealization rewrites nothing, so it is preserved trivially.
-/
import proofs.«178146_j65755949302191_2_alg».proof.Defs
import proofs.«178146_j65755949302191_2_alg».proof.Proof.Gen.Kernel
import proofs.«178146_j65755949302191_2_alg».proof.Proof.Gen.Kernel.Skeleton
import proofs.«178146_j65755949302191_2_alg».proof.Proof.Gen.Kernel.Launch
import proofs.«178146_j65755949302191_2_alg».proof.Proof.Gen.Kernel.Points
import proofs.«178146_j65755949302191_2_alg».proof.Proof.Gen.Kernel.Frame
import proofs.«178146_j65755949302191_2_alg».proof.Proof.Gen.KernelIdeal
import proofs.«178146_j65755949302191_2_alg».proof.Proof.Gen.KernelIdeal.Skeleton
import proofs.«178146_j65755949302191_2_alg».proof.Proof.Gen.KernelIdeal.Launch
import proofs.«178146_j65755949302191_2_alg».proof.Proof.Gen.KernelIdeal.Points
import proofs.«178146_j65755949302191_2_alg».proof.Proof.Gen.KernelIdeal.Frame
import proofs.«178146_j65755949302191_2_alg».proof.Proof.Gen.ReferenceIdeal
import proofs.«178146_j65755949302191_2_alg».proof.Proof.Gen.Pre_finite_inputs
import proofs.«178146_j65755949302191_2_alg».proof.Proof.KernelTail
import proofs.«178146_j65755949302191_2_alg».proof.Proof.RefSums
import proofs.«178146_j65755949302191_2_alg».proof.Proof.RefRun
import Idealize.ShloMosaic.Adequacy
import Idealize.ShloMosaic.Init

noncomputable section

namespace Cert.Proof

open Idealize.ShloMosaic Idealize.SL.Sem Cert.Morph

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the results forgotten. -/
theorem frame_ri : Cert.frame_ReferenceIdeal := fun m ρ _ =>
  (θ_run Cert.ReferenceIdeal.defs _ _).mono (fun _ h c => (h c).2.2.2) (Cert.ReferenceIdeal.ValueP.run (F := Ideal) m ρ)

/-- From memories that agree on the arguments, the idealized kernel and the idealized reference end with the same three
    results: the feature maps of the hit and miss responses of the arguments. -/
theorem algebraic : Cert.algebraic_KernelIdeal_ReferenceIdeal := by
  intro m ρ m' ρ' _ hagree
  refine ⟨fun c => pooledMap (Ker.hitR m c) (Ker.missR m c), fun c => spreadMap (Ker.hitR m c), fun c => spreadMap (Ker.missR m c),
    Ker.run m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.ValueP.run (F := Ideal) m' ρ')
  · rw [(hagree c).1, (hagree c).2.1, (hagree c).2.2, Ref.pooled_eq, Ref.hitSum_eq, Ref.missSum_eq]
  · rw [(hagree c).1, (hagree c).2.1, Ref.hitMap_eq, Ref.hitSum_eq]
  · rw [(hagree c).1, (hagree c).2.2, Ref.missMap_eq, Ref.missSum_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
